-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S8192x1024 : Shape := ⟨2, ![8192, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 33
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x3072, .f32⟩
  | .hbm, ⟨19, _⟩ => ⟨S1024x3072, .bf16⟩
  | .hbm, ⟨20, _⟩ => ⟨S3072, .f32⟩
  | .hbm, ⟨21, _⟩ => ⟨S1x3072, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S4x2048x1024, .bf16⟩
  | .hbm, ⟨30, _⟩ => ⟨S4x2048x1024, .bf16⟩
  | .hbm, ⟨31, _⟩ => ⟨S4x2048x1024, .bf16⟩
  | .hbm, ⟨32, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1024x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x1024_0_0 : ∀ a, (![0, 0] : Fin 2 → Nat) a + S1024x1024.size a ≤ S1024x3072.size a
  h_S1024x1024 : 0 < S1024x1024.numel
  shapeCasts_S1024x1024_S1024x1024 : S1024x1024.ShapeCasts S1024x1024
  inb_S1024x3072_S1024x1024_0_1024 : ∀ a, (![0, 1024] : Fin 2 → Nat) a + S1024x1024.size a ≤ S1024x3072.size a
  inb_S1024x3072_S1024x1024_0_2048 : ∀ a, (![0, 2048] : Fin 2 → Nat) a + S1024x1024.size a ≤ S1024x3072.size a
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  inb_S1x3072_S1x1024_0_1024 : ∀ a, (![0, 1024] : Fin 2 → Nat) a + S1x1024.size a ≤ S1x3072.size a
  inb_S1x3072_S1x1024_0_2048 : ∀ a, (![0, 2048] : Fin 2 → Nat) a + S1x1024.size a ≤ S1x3072.size a
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  inb_S1024x1024_S1024x1024_0_0 : ∀ a, (![0, 0] : Fin 2 → Nat) a + S1024x1024.size a ≤ S1024x1024.size a
  inb_S1x1024_S1x1024_0_0 : ∀ a, (![0, 0] : Fin 2 → Nat) a + S1x1024.size a ≤ S1x1024.size a
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsBlocks.lean ====
/- The windows' blocks, what each kernel body leaves in its output windows, and the two regions' proof data. -/
import proofs.«150292_j15582141350417_2_alg».proof.Proof.Gen.Kernel.Launch
import proofs.«150292_j15582141350417_2_alg».proof.Proof.Gen.Kernel.Skeleton
import proofs.«150292_j15582141350417_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when a region is entered: every definition below is stated at this parameter
variable (V : (c : Dev nD) → (b : Ref sig .tc) → Buf (Elt F) ((c : Thread nD τ).loc b))

/-! # Region 0: the projection of the rows onto queries, keys and values

Window 0 is a block of 512 rows of the 8192 x 1024 input, windows 1 and 2 the concatenated 1024 x 3072 weight and the
1 x 3072 bias (the same block at every point), windows 3, 4, 5 the matching 512-row blocks of the three outputs. -/

/-- Window `w`'s block at point `t`: the part of its array, as the region finds it, that the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A whole 512 x 1024 block: what the body reads of window 0 and writes to each of windows 3, 4, 5. -/
abbrev rX0 : Rect S512x1024 := Rect.unit (s := S512x1024) ![0, 0] S512x1024.size inb_S512x1024_S512x1024_0_0
/-- Columns 0..1023 of the weight: the query projection. -/
abbrev rWq : Rect S1024x3072 := Rect.unit (s := S1024x3072) ![0, 0] S1024x1024.size inb_S1024x3072_S1024x1024_0_0
/-- Columns 1024..2047 of the weight: the key projection. -/
abbrev rWk : Rect S1024x3072 := Rect.unit (s := S1024x3072) ![0, 1024] S1024x1024.size inb_S1024x3072_S1024x1024_0_1024
/-- Columns 2048..3071 of the weight: the value projection. -/
abbrev rWv : Rect S1024x3072 := Rect.unit (s := S1024x3072) ![0, 2048] S1024x1024.size inb_S1024x3072_S1024x1024_0_2048
/-- Columns 0..1023 of the bias. -/
abbrev rBq : Rect S1x3072 := Rect.unit (s := S1x3072) ![0, 0] S1x1024.size inb_S1x3072_S1x1024_0_0
/-- Columns 1024..2047 of the bias. -/
abbrev rBk : Rect S1x3072 := Rect.unit (s := S1x3072) ![0, 1024] S1x1024.size inb_S1x3072_S1x1024_0_1024
/-- Columns 2048..3071 of the bias. -/
abbrev rBv : Rect S1x3072 := Rect.unit (s := S1x3072) ![0, 2048] S1x1024.size inb_S1x3072_S1x1024_0_2048

/-- The query block the body leaves in window 3: the rows times the first column slice of the weight, plus the first
    slice of the bias, as one whole-block store. -/
def out0_3 (x0 : Vec F S512x1024 .f32) (x1 : Vec F S1024x3072 .bf16) (x2 : Vec F S1x3072 .f32) : Vec F S512x1024 .bf16 :=
  View.canon [⟨rX0, k0_pay2 (View.ld x0 rX0) (View.ld x1 rWq) (View.ld x2 rBq)⟩]
/-- The key block the body leaves in window 4: the same over the second column slices. -/
def out0_4 (x0 : Vec F S512x1024 .f32) (x1 : Vec F S1024x3072 .bf16) (x2 : Vec F S1x3072 .f32) : Vec F S512x1024 .bf16 :=
  View.canon [⟨rX0, k0_pay3 (View.ld x0 rX0) (View.ld x1 rWk) (View.ld x2 rBk)⟩]
/-- The value block the body leaves in window 5: the same over the third column slices. -/
def out0_5 (x0 : Vec F S512x1024 .f32) (x1 : Vec F S1024x3072 .bf16) (x2 : Vec F S1x3072 .f32) : Vec F S512x1024 .bf16 :=
  View.canon [⟨rX0, k0_pay4 (View.ld x0 rX0) (View.ld x1 rWv) (View.ld x2 rBv)⟩]

/-- Region 0's proof data on core `c`: each window's array as the region finds it; after the body at point `t` every
    input window still holds its block and every output window the projection of the point's input blocks; the
    invariant is the untouched rest of the core; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-! # Region 1: attention of a block of queries over a batch's keys and values, then the output projection

Window 0 is a block of 512 query rows of one batch, windows 1 and 2 that batch's 2048 key and value rows, windows 3
and 4 the 1024 x 1024 output weight and its 1 x 1024 bias (the same block at every point), window 5 the matching block
of the result. -/

/-- Window `w`'s block at point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole 1 x 512 x 1024 block: what the body reads of window 0 and writes to window 5. -/
abbrev rQ1 : Rect S1x512x1024 := Rect.unit (s := S1x512x1024) ![0, 0, 0] S1x512x1024.size inb_S1x512x1024_S1x512x1024_0_0_0
/-- A whole 1 x 2048 x 1024 block: a batch's keys, or its values. -/
abbrev rKV1 : Rect S1x2048x1024 := Rect.unit (s := S1x2048x1024) ![0, 0, 0] S1x2048x1024.size inb_S1x2048x1024_S1x2048x1024_0_0_0
/-- The whole output weight. -/
abbrev rWo1 : Rect S1024x1024 := Rect.unit (s := S1024x1024) ![0, 0] S1024x1024.size inb_S1024x1024_S1024x1024_0_0
/-- The whole output bias. -/
abbrev rBo1 : Rect S1x1024 := Rect.unit (s := S1x1024) ![0, 0] S1x1024.size inb_S1x1024_S1x1024_0_0

/-- The result block the body leaves in window 5: the softmax over the keys of the scaled scores of the query block,
    applied to the values and projected by the output weight, plus the bias, as one whole-block store. -/
def out1_5 (x0 : Vec F S1x512x1024 .bf16) (x1 x2 : Vec F S1x2048x1024 .bf16) (x3 : Vec F S1024x1024 .bf16) (x4 : Vec F S1x1024 .f32) :
    Vec F S1x512x1024 .f32 :=
  View.canon [⟨rQ1, k1_pay1 (View.ld x0 rQ1) (View.ld x1 rKV1) (View.ld x2 rKV1) (View.ld x3 rWo1) (View.ld x4 rBo1)⟩]

/-- Region 1's proof data on core `c`: each window's array as the region finds it; after the body at point `t` every
    input window still holds its block and the output window the attention result of the point's input blocks; the
    invariant is the untouched rest of the core; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

end Cert.Kernel.Hand

end
-- ==== Proof.BitsQkv.lean ====
/- Region 0, the projection onto queries, keys and values: what its body finds, does and leaves at every point. -/
import proofs.«150292_j15582141350417_2_alg».proof.Proof.Gen.Kernel.Launch
import proofs.«150292_j15582141350417_2_alg».proof.Proof.Gen.Kernel.Skeleton
import proofs.«150292_j15582141350417_2_alg».proof.Proof.Gen.Kernel.Points
import proofs.«150292_j15582141350417_2_alg».proof.Proof.BitsBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## What the body finds in the input windows -/

/-- Input window 0's current buffer holds its block at every point, fetched there or not: where it is not fetched
    its block index has not moved since the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current buffer holds its block at every point, fetched there or not: where it is not fetched
    its block index has not moved since the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current buffer holds its block at every point, fetched there or not: where it is not fetched
    its block index has not moved since the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-! ## The one store into each output window fills it -/

/-- A single piece over the whole 512 x 1024 block covers every index of it. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 1000000 in
/-- The body on whole buffers, the three inputs' reading `x0`, `x1`, `x2` and the three outputs' holding anything, runs
    to a state where the inputs are as they were and the outputs hold the query, key and value projections of the
    inputs. Each output buffer is read once before it is written; the value read is not used. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation -/

/-- What the body is called with at point `t`: the invariant, the core's dues, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAttn.lean ====
/- Region 1, attention and the output projection: what its body finds, does and leaves at every point. -/
import proofs.«150292_j15582141350417_2_alg».proof.Proof.Gen.Kernel.Launch
import proofs.«150292_j15582141350417_2_alg».proof.Proof.Gen.Kernel.Skeleton
import proofs.«150292_j15582141350417_2_alg».proof.Proof.Gen.Kernel.Points
import proofs.«150292_j15582141350417_2_alg».proof.Proof.BitsBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## What the body finds in the input windows

The query window is fetched at every point, the key and value windows when the batch changes, the output weight and
bias at the first point only: each holds its block at every point all the same. -/

/-- Input window 0's current buffer holds its block at every point, fetched there or not: where it is not fetched
    its block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current buffer holds its block at every point, fetched there or not: where it is not fetched
    its block index has not moved since the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current buffer holds its block at every point, fetched there or not: where it is not fetched
    its block index has not moved since the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3's current buffer holds its block at every point, fetched there or not: where it is not fetched
    its block index has not moved since the point before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4's current buffer holds its block at every point, fetched there or not: where it is not fetched
    its block index has not moved since the point before, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-! ## The one store into the output window fills it -/

/-- A single piece over the whole 1 x 512 x 1024 block covers every index of it. -/
theorem cover1 (p0 : Vec F S1x512x1024 .f32) (y : S1x512x1024.Idx) :
    ∃ pc ∈ ([⟨rQ1, p0⟩] : List (View.Piece (Elt F) S1x512x1024 .f32)), y ∈ pc.1.set :=
  View.cover_of_tiled [⟨rQ1, p0⟩] S1x512x1024.size (by rfl) y

/-! ## The body's triple -/

set_option maxHeartbeats 1000000 in
/-- The body on whole buffers, the five inputs' reading `x0`..`x4` and the output's holding anything, runs to a state
    where the inputs are as they were and the output holds the attention result of the inputs. The output buffer is
    read once before it is written; the value read is not used. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The body obligation -/

/-- What the body is called with at point `t`: the invariant, the core's dues, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/- The run of @main through both regions: the buffer contents at each boundary, the regions as segments, the launch,
   and the frame. -/
import proofs.«150292_j15582141350417_2_alg».proof.Proof.Gen.Kernel.Launch
import proofs.«150292_j15582141350417_2_alg».proof.Proof.Gen.Kernel.Skeleton
import proofs.«150292_j15582141350417_2_alg».proof.Proof.Gen.Kernel.Points
import proofs.«150292_j15582141350417_2_alg».proof.Proof.Gen.Kernel.Regions
import proofs.«150292_j15582141350417_2_alg».proof.Proof.BitsBlocks
import proofs.«150292_j15582141350417_2_alg».proof.Proof.BitsQkv
import proofs.«150292_j15582141350417_2_alg».proof.Proof.BitsAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main

@main is a stretch of host operations (scaling and transposing the weights, concatenating them and the biases, casting,
reshaping), region 0, three reshapes, region 1. `W0` .. `W4` are each core's buffer contents at the five boundaries. -/

/-- Core `c`'s buffers at launch. -/
abbrev W0 : Dev nD → Valuation τ sig (Elt F) := fun c b => (s₀ m ρ).mem ((c : Dev nD), b)
/-- After the first host stretch: region 0 is entered here. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its arrays at what the pipeline leaves (the inputs as entered, each output with every point's
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: region 1 is entered here. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No argument is an array of either region (each region reads intermediates the host stretches made), and no host
operation writes one: an argument's buffer at the last boundary is walked back, boundary by boundary, to the launch. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over a pinned configuration meets the printed one only when unification may unfold plain
-- definitions in the type of an unknown
set_option backward.isDefEq.respectTransparency.types false in
/-- Region 0 over the thread state: entered with every unscoped buffer at `W1`, left with them at `W2`. Its six
    arrays are split out of the unscoped buffers on entry and put back at what the write-backs leave on exit; the
    generator register goes into the invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration meets the printed one only when unification may unfold plain
-- definitions in the type of an unknown
set_option backward.isDefEq.respectTransparency.types false in
/-- Region 1 over the thread state: entered with every unscoped buffer at `W3`, left with them at `W4`. Its six
    arrays are split out of the unscoped buffers on entry and put back at what the write-backs leave on exit; the
    generator register goes into the invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in the type of an unknown
set_option backward.isDefEq.respectTransparency.types false in
/-- THE RUN. From any memory with zero counters, every weakly fair execution of @main on the TensorCores terminates,
    nothing faulting, and in every final state each core's every unscoped buffer holds the last boundary's contents `W4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = W4 m ρ c b)
    (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.Kernel.Hand

end
-- ==== Proof.IdealBlocks.lean ====
/- The windows' blocks, what each kernel body leaves in its output windows, and the two regions' proof data. -/
import proofs.«150292_j15582141350417_2_alg».proof.Proof.Gen.KernelIdeal.Launch
import proofs.«150292_j15582141350417_2_alg».proof.Proof.Gen.KernelIdeal.Skeleton
import proofs.«150292_j15582141350417_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when a region is entered: every definition below is stated at this parameter
variable (V : (c : Dev nD) → (b : Ref sig .tc) → Buf (Elt F) ((c : Thread nD τ).loc b))

/-! # Region 0: the projection of the rows onto queries, keys and values

Window 0 is a block of 512 rows of the 8192 x 1024 input, windows 1 and 2 the concatenated 1024 x 3072 weight and the
1 x 3072 bias (the same block at every point), windows 3, 4, 5 the matching 512-row blocks of the three outputs. -/

/-- Window `w`'s block at point `t`: the part of its array, as the region finds it, that the point's index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A whole 512 x 1024 block: what the body reads of window 0 and writes to each of windows 3, 4, 5. -/
abbrev rX0 : Rect S512x1024 := Rect.unit (s := S512x1024) ![0, 0] S512x1024.size inb_S512x1024_S512x1024_0_0
/-- Columns 0..1023 of the weight: the query projection. -/
abbrev rWq : Rect S1024x3072 := Rect.unit (s := S1024x3072) ![0, 0] S1024x1024.size inb_S1024x3072_S1024x1024_0_0
/-- Columns 1024..2047 of the weight: the key projection. -/
abbrev rWk : Rect S1024x3072 := Rect.unit (s := S1024x3072) ![0, 1024] S1024x1024.size inb_S1024x3072_S1024x1024_0_1024
/-- Columns 2048..3071 of the weight: the value projection. -/
abbrev rWv : Rect S1024x3072 := Rect.unit (s := S1024x3072) ![0, 2048] S1024x1024.size inb_S1024x3072_S1024x1024_0_2048
/-- Columns 0..1023 of the bias. -/
abbrev rBq : Rect S1x3072 := Rect.unit (s := S1x3072) ![0, 0] S1x1024.size inb_S1x3072_S1x1024_0_0
/-- Columns 1024..2047 of the bias. -/
abbrev rBk : Rect S1x3072 := Rect.unit (s := S1x3072) ![0, 1024] S1x1024.size inb_S1x3072_S1x1024_0_1024
/-- Columns 2048..3071 of the bias. -/
abbrev rBv : Rect S1x3072 := Rect.unit (s := S1x3072) ![0, 2048] S1x1024.size inb_S1x3072_S1x1024_0_2048

/-- The query block the body leaves in window 3: the rows times the first column slice of the weight, plus the first
    slice of the bias, as one whole-block store. -/
def out0_3 (x0 : Vec F S512x1024 .f32) (x1 : Vec F S1024x3072 .bf16) (x2 : Vec F S1x3072 .f32) : Vec F S512x1024 .bf16 :=
  View.canon [⟨rX0, k0_pay2 (View.ld x0 rX0) (View.ld x1 rWq) (View.ld x2 rBq)⟩]
/-- The key block the body leaves in window 4: the same over the second column slices. -/
def out0_4 (x0 : Vec F S512x1024 .f32) (x1 : Vec F S1024x3072 .bf16) (x2 : Vec F S1x3072 .f32) : Vec F S512x1024 .bf16 :=
  View.canon [⟨rX0, k0_pay3 (View.ld x0 rX0) (View.ld x1 rWk) (View.ld x2 rBk)⟩]
/-- The value block the body leaves in window 5: the same over the third column slices. -/
def out0_5 (x0 : Vec F S512x1024 .f32) (x1 : Vec F S1024x3072 .bf16) (x2 : Vec F S1x3072 .f32) : Vec F S512x1024 .bf16 :=
  View.canon [⟨rX0, k0_pay4 (View.ld x0 rX0) (View.ld x1 rWv) (View.ld x2 rBv)⟩]

/-- Region 0's proof data on core `c`: each window's array as the region finds it; after the body at point `t` every
    input window still holds its block and every output window the projection of the point's input blocks; the
    invariant is the untouched rest of the core; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-! # Region 1: attention of a block of queries over a batch's keys and values, then the output projection

Window 0 is a block of 512 query rows of one batch, windows 1 and 2 that batch's 2048 key and value rows, windows 3
and 4 the 1024 x 1024 output weight and its 1 x 1024 bias (the same block at every point), window 5 the matching block
of the result. -/

/-- Window `w`'s block at point `t`: the part of its array, as the region finds it, that the point's index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole 1 x 512 x 1024 block: what the body reads of window 0 and writes to window 5. -/
abbrev rQ1 : Rect S1x512x1024 := Rect.unit (s := S1x512x1024) ![0, 0, 0] S1x512x1024.size inb_S1x512x1024_S1x512x1024_0_0_0
/-- A whole 1 x 2048 x 1024 block: a batch's keys, or its values. -/
abbrev rKV1 : Rect S1x2048x1024 := Rect.unit (s := S1x2048x1024) ![0, 0, 0] S1x2048x1024.size inb_S1x2048x1024_S1x2048x1024_0_0_0
/-- The whole output weight. -/
abbrev rWo1 : Rect S1024x1024 := Rect.unit (s := S1024x1024) ![0, 0] S1024x1024.size inb_S1024x1024_S1024x1024_0_0
/-- The whole output bias. -/
abbrev rBo1 : Rect S1x1024 := Rect.unit (s := S1x1024) ![0, 0] S1x1024.size inb_S1x1024_S1x1024_0_0

/-- The result block the body leaves in window 5: the softmax over the keys of the scaled scores of the query block,
    applied to the values and projected by the output weight, plus the bias, as one whole-block store. -/
def out1_5 (x0 : Vec F S1x512x1024 .bf16) (x1 x2 : Vec F S1x2048x1024 .bf16) (x3 : Vec F S1024x1024 .bf16) (x4 : Vec F S1x1024 .f32) :
    Vec F S1x512x1024 .f32 :=
  View.canon [⟨rQ1, k1_pay1 (View.ld x0 rQ1) (View.ld x1 rKV1) (View.ld x2 rKV1) (View.ld x3 rWo1) (View.ld x4 rBo1)⟩]

/-- Region 1's proof data on core `c`: each window's array as the region finds it; after the body at point `t` every
    input window still holds its block and the output window the attention result of the point's input blocks; the
    invariant is the untouched rest of the core; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

end Cert.KernelIdeal.Hand

end
-- ==== Proof.IdealQkv.lean ====
/- Region 0, the projection onto queries, keys and values: what its body finds, does and leaves at every point. -/
import proofs.«150292_j15582141350417_2_alg».proof.Proof.Gen.KernelIdeal.Launch
import proofs.«150292_j15582141350417_2_alg».proof.Proof.Gen.KernelIdeal.Skeleton
import proofs.«150292_j15582141350417_2_alg».proof.Proof.Gen.KernelIdeal.Points
import proofs.«150292_j15582141350417_2_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## What the body finds in the input windows -/

/-- Input window 0's current buffer holds its block at every point, fetched there or not: where it is not fetched
    its block index has not moved since the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current buffer holds its block at every point, fetched there or not: where it is not fetched
    its block index has not moved since the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current buffer holds its block at every point, fetched there or not: where it is not fetched
    its block index has not moved since the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-! ## The one store into each output window fills it -/

/-- A single piece over the whole 512 x 1024 block covers every index of it. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 1000000 in
/-- The body on whole buffers, the three inputs' reading `x0`, `x1`, `x2` and the three outputs' holding anything, runs
    to a state where the inputs are as they were and the outputs hold the query, key and value projections of the
    inputs. Each output buffer is read once before it is written; the value read is not used. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation -/

/-- What the body is called with at point `t`: the invariant, the core's dues, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealAttn.lean ====
/- Region 1, attention and the output projection: what its body finds, does and leaves at every point. -/
import proofs.«150292_j15582141350417_2_alg».proof.Proof.Gen.KernelIdeal.Launch
import proofs.«150292_j15582141350417_2_alg».proof.Proof.Gen.KernelIdeal.Skeleton
import proofs.«150292_j15582141350417_2_alg».proof.Proof.Gen.KernelIdeal.Points
import proofs.«150292_j15582141350417_2_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## What the body finds in the input windows

The query window is fetched at every point, the key and value windows when the batch changes, the output weight and
bias at the first point only: each holds its block at every point all the same. -/

/-- Input window 0's current buffer holds its block at every point, fetched there or not: where it is not fetched
    its block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current buffer holds its block at every point, fetched there or not: where it is not fetched
    its block index has not moved since the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current buffer holds its block at every point, fetched there or not: where it is not fetched
    its block index has not moved since the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3's current buffer holds its block at every point, fetched there or not: where it is not fetched
    its block index has not moved since the point before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4's current buffer holds its block at every point, fetched there or not: where it is not fetched
    its block index has not moved since the point before, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-! ## The one store into the output window fills it -/

/-- A single piece over the whole 1 x 512 x 1024 block covers every index of it. -/
theorem cover1 (p0 : Vec F S1x512x1024 .f32) (y : S1x512x1024.Idx) :
    ∃ pc ∈ ([⟨rQ1, p0⟩] : List (View.Piece (Elt F) S1x512x1024 .f32)), y ∈ pc.1.set :=
  View.cover_of_tiled [⟨rQ1, p0⟩] S1x512x1024.size (by rfl) y

/-! ## The body's triple -/

set_option maxHeartbeats 1000000 in
/-- The body on whole buffers, the five inputs' reading `x0`..`x4` and the output's holding anything, runs to a state
    where the inputs are as they were and the output holds the attention result of the inputs. The output buffer is
    read once before it is written; the value read is not used. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (x0 : Vec F S1x512x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The body obligation -/

/-- What the body is called with at point `t`: the invariant, the core's dues, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/- The run of @main through both regions: the buffer contents at each boundary, the regions as segments, the launch,
   and the frame. -/
import proofs.«150292_j15582141350417_2_alg».proof.Proof.Gen.KernelIdeal.Launch
import proofs.«150292_j15582141350417_2_alg».proof.Proof.Gen.KernelIdeal.Skeleton
import proofs.«150292_j15582141350417_2_alg».proof.Proof.Gen.KernelIdeal.Points
import proofs.«150292_j15582141350417_2_alg».proof.Proof.Gen.KernelIdeal.Regions
import proofs.«150292_j15582141350417_2_alg».proof.Proof.IdealBlocks
import proofs.«150292_j15582141350417_2_alg».proof.Proof.IdealQkv
import proofs.«150292_j15582141350417_2_alg».proof.Proof.IdealAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes is decided structurally, one step per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main

@main is a stretch of host operations (scaling and transposing the weights, concatenating them and the biases, casting,
reshaping), region 0, three reshapes, region 1. `W0` .. `W4` are each core's buffer contents at the five boundaries. -/

/-- Core `c`'s buffers at launch. -/
abbrev W0 : Dev nD → Valuation τ sig (Elt F) := fun c b => (s₀ m ρ).mem ((c : Dev nD), b)
/-- After the first host stretch: region 0 is entered here. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its arrays at what the pipeline leaves (the inputs as entered, each output with every point's
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: region 1 is entered here. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No argument is an array of either region (each region reads intermediates the host stretches made), and no host
operation writes one: an argument's buffer at the last boundary is walked back, boundary by boundary, to the launch. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over a pinned configuration meets the printed one only when unification may unfold plain
-- definitions in the type of an unknown
set_option backward.isDefEq.respectTransparency.types false in
/-- Region 0 over the thread state: entered with every unscoped buffer at `W1`, left with them at `W2`. Its six
    arrays are split out of the unscoped buffers on entry and put back at what the write-backs leave on exit; the
    generator register goes into the invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration meets the printed one only when unification may unfold plain
-- definitions in the type of an unknown
set_option backward.isDefEq.respectTransparency.types false in
/-- Region 1 over the thread state: entered with every unscoped buffer at `W3`, left with them at `W4`. Its six
    arrays are split out of the unscoped buffers on entry and put back at what the write-backs leave on exit; the
    generator register goes into the invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in the type of an unknown
set_option backward.isDefEq.respectTransparency.types false in
/-- THE RUN. From any memory with zero counters, every weakly fair execution of @main on the TensorCores terminates,
    nothing faulting, and in every final state each core's every unscoped buffer holds the last boundary's contents `W4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = W4 m ρ c b)
    (fun r h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_all m ρ)

end Cert.KernelIdeal.Hand

end
-- ==== Proof.KernelOps.lean ====
/-
  The vector operations of the two kernel bodies, read at an index, on the extended reals:
  the three matrix products (a projection [512,1024] x [1024,1024], queries against keys
  [512,1024] x [2048,1024]^T, weights against values [512,2048] x [2048,1024]) as sums over the
  contracted coordinate; a row's maximum and a row's sum over the 2048 keys; a column [512] laid
  out as [512,1] and repeated along the keys.
-/
import proofs.«150292_j15582141350417_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnValue

open Cert.KernelIdeal Idealize.ShloMosaic Idealize.ShloMosaic.ValueIdx

/-! ## The matrix products -/

theorem mm_proj_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_proj_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_proj_rn (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem mm_proj_rc (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- Rows of the left operand against columns of the right: (l r)[p,e] = sum_d l[p,d] r[d,e]. -/
theorem mm_proj_apply (l : FVec Ideal S512x1024 .bf16) (r : FVec Ideal S1024x1024 .bf16) (p : Fin 512) (e : Fin 1024) :
    FloatOps.matmul dot_S512x1024_S1024x1024_S512x1024_1_0_0_1_n_n none l r (constant (F := Ideal) S512x1024 .f32 0x00000000#32) (ix2 p e)
      = ∑ d : Fin 1024, l (ix2 p d) * r (ix2 d e) := by
  rw [Ideal.matmul_constant_zero_apply, ← Equiv.sum_comp (contrEquiv1 dot_S512x1024_S1024x1024_S512x1024_1_0_0_1_n_n 1024 rfl rfl).symm]
  refine Finset.sum_congr rfl fun d _ => ?_
  have hk := contrEquiv1_symm_val dot_S512x1024_S1024x1024_S512x1024_1_0_0_1_n_n 1024 rfl rfl d
  have el : dot_S512x1024_S1024x1024_S512x1024_1_0_0_1_n_n.lhsIdx (ix2 p e) ((contrEquiv1 dot_S512x1024_S1024x1024_S512x1024_1_0_0_1_n_n 1024 rfl rfl).symm d) = ix2 p d := funext fun a => Fin.ext (by
    match a with
    | ⟨0, _⟩ => exact mm_proj_l0 _ _
    | ⟨1, _⟩ => exact (mm_proj_l1 _ _).trans hk)
  have er : dot_S512x1024_S1024x1024_S512x1024_1_0_0_1_n_n.rhsIdx (ix2 p e) ((contrEquiv1 dot_S512x1024_S1024x1024_S512x1024_1_0_0_1_n_n 1024 rfl rfl).symm d) = ix2 d e := funext fun a => Fin.ext (by
    match a with
    | ⟨1, _⟩ => exact mm_proj_rn _ _
    | ⟨0, _⟩ => exact (mm_proj_rc _ _).trans hk)
  rw [el, er]

theorem mm_qk_l0 (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem mm_qk_l1 (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem mm_qk_rn (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem mm_qk_rc (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- Rows against rows: (l r^T)[p,k] = sum_d l[p,d] r[k,d]. -/
theorem mm_qk_apply (l : FVec Ideal S512x1024 .bf16) (r : FVec Ideal S2048x1024 .bf16) (p : Fin 512) (k : Fin 2048) :
    FloatOps.matmul dot_S512x1024_S2048x1024_S512x2048_1_1_0_0_n_n none l r (constant (F := Ideal) S512x2048 .f32 0x00000000#32) (ix2 p k)
      = ∑ d : Fin 1024, l (ix2 p d) * r (ix2 k d) := by
  rw [Ideal.matmul_constant_zero_apply, ← Equiv.sum_comp (contrEquiv1 dot_S512x1024_S2048x1024_S512x2048_1_1_0_0_n_n 1024 rfl rfl).symm]
  refine Finset.sum_congr rfl fun d _ => ?_
  have hk := contrEquiv1_symm_val dot_S512x1024_S2048x1024_S512x2048_1_1_0_0_n_n 1024 rfl rfl d
  have el : dot_S512x1024_S2048x1024_S512x2048_1_1_0_0_n_n.lhsIdx (ix2 p k) ((contrEquiv1 dot_S512x1024_S2048x1024_S512x2048_1_1_0_0_n_n 1024 rfl rfl).symm d) = ix2 p d := funext fun a => Fin.ext (by
    match a with
    | ⟨0, _⟩ => exact mm_qk_l0 _ _
    | ⟨1, _⟩ => exact (mm_qk_l1 _ _).trans hk)
  have er : dot_S512x1024_S2048x1024_S512x2048_1_1_0_0_n_n.rhsIdx (ix2 p k) ((contrEquiv1 dot_S512x1024_S2048x1024_S512x2048_1_1_0_0_n_n 1024 rfl rfl).symm d) = ix2 k d := funext fun a => Fin.ext (by
    match a with
    | ⟨0, _⟩ => exact mm_qk_rn _ _
    | ⟨1, _⟩ => exact (mm_qk_rc _ _).trans hk)
  rw [el, er]

theorem mm_pv_l0 (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem mm_pv_l1 (i : S512x1024.Idx) (q : dot_S512x2048_S2048x1024_S512x1024_1_0_0_1_n_n.contr.Idx) : (dot_S512x2048_S2048x1024_S512x1024_1_0_0_1_n_n.lhsIdx i q 1).val = (q ⟨0, by decide⟩).val :=
  dot_S512x2048_S2048x1024_S512x1024_1_0_0_1_n_n.lhsIdx_val_of_single rfl i q
theorem mm_pv_rn (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem mm_pv_rc (i : S512x1024.Idx) (q : dot_S512x2048_S2048x1024_S512x1024_1_0_0_1_n_n.contr.Idx) : (dot_S512x2048_S2048x1024_S512x1024_1_0_0_1_n_n.rhsIdx i q 0).val = (q ⟨0, by decide⟩).val :=
  dot_S512x2048_S2048x1024_S512x1024_1_0_0_1_n_n.rhsIdx_val_of_single rfl i q

/-- Rows against columns over the keys: (l r)[p,d] = sum_k l[p,k] r[k,d]. -/
theorem mm_pv_apply (l : FVec Ideal S512x2048 .bf16) (r : FVec Ideal S2048x1024 .bf16) (p : Fin 512) (d : Fin 1024) :
    FloatOps.matmul dot_S512x2048_S2048x1024_S512x1024_1_0_0_1_n_n none l r (constant (F := Ideal) S512x1024 .f32 0x00000000#32) (ix2 p d)
      = ∑ k : Fin 2048, l (ix2 p k) * r (ix2 k d) := by
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p d) ((contrEquiv1 dot_S512x2048_S2048x1024_S512x1024_1_0_0_1_n_n 2048 rfl rfl).symm k) = ix2 p k := funext fun a => Fin.ext (by
    match a with
    | ⟨0, _⟩ => exact mm_pv_l0 _ _
    | ⟨1, _⟩ => exact (mm_pv_l1 _ _).trans hk)
  have er : dot_S512x2048_S2048x1024_S512x1024_1_0_0_1_n_n.rhsIdx (ix2 p d) ((contrEquiv1 dot_S512x2048_S2048x1024_S512x1024_1_0_0_1_n_n 2048 rfl rfl).symm k) = ix2 k d := funext fun a => Fin.ext (by
    match a with
    | ⟨1, _⟩ => exact mm_pv_rn _ _
    | ⟨0, _⟩ => exact (mm_pv_rc _ _).trans hk)
  rw [el, er]

/-! ## The reductions over the keys -/

/-- The index of row p at key k, as the reduction inserts the reduced coordinate. -/
theorem lift_row (h : S512x2048.Reduces [1] S512) (p : Fin 512) (k : Fin 2048) : h.lift (ix1 p) k = ix2 p k :=
  funext fun a => Fin.ext (by match a with | ⟨0, _⟩ => rfl | ⟨1, _⟩ => rfl)

/-- A row's maximum over the keys, from the accumulator's word. -/
theorem rowmax_apply (v : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 v 0xFF800000#32 h hφ hacc (ix1 p)
      = (Finset.univ : Finset (Fin 2048)).fold max (Ideal.ofBits .f32 0xFF800000#32) (fun k => v (ix2 p k)) := by
  refine (Ideal.multiReduction_maximumf_single v 0xFF800000#32 h hφ hacc (ix1 p)).trans ?_
  refine congrArg (fun f => (Finset.univ : Finset (Fin 2048)).fold max (Ideal.ofBits .f32 0xFF800000#32) f) ?_
  funext k
  exact congrArg v (lift_row h p k)

/-- A row's sum over the keys. -/
theorem rowsum_apply (v : FVec Ideal S512x2048 .f32) (h : S512x2048.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 2048, v (ix2 p k) := by
  refine (Ideal.multiReduction_add_single v 0x00000000#32 h hφ hacc (ix1 p)).trans ?_
  exact Finset.sum_congr rfl fun k _ => congrArg v (lift_row h p k)

/-! ## A column laid out beside the keys -/

/-- A [512] array cast to [512,1] reads, at (p, u), the operand at p. -/
theorem col_cast_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [512,1] array broadcast to [512,2048] reads, at (p, k), the operand's one entry of row p. -/
theorem col_bcast_apply {α : Type} (x : S512x1.Idx → α) (h : S512x1.Broadcasts S512x2048) (p : Fin 512) (k : Fin 2048) :
    broadcastTo S512x2048 x h (ix2 p k) = x (ix2 p (0 : Fin 1)) := by
  refine broadcastTo_apply x h (ix2 p k) (ix2 p (0 : Fin 1)) fun ax => ?_
  match ax with
  | ⟨0, _⟩ =>
    show p.val = if (512 : ℕ) = 1 then 0 else p.val
    rw [if_neg (by decide)]
  | ⟨1, _⟩ => rfl

end Cert.KernelIdeal.AttnValue

end
-- ==== Proof.AttnSpec.lean ====
/-
  Single-head scaled dot-product attention over f32[4, 2048, 1024] activations with 1024 x 1024 projections, as ONE
  function of the nine argument arrays, index by index, on the extended reals.

    Q = x Wq^T + bq,  K = x Wk^T + bk,  V = x Wv^T + bv           (rows of W are output features)
    s[b,q,k]   = (sum_d Q[b,q,d] K[b,k,d]) / sqrt 1024
    p[b,q,k]   = exp (s[b,q,k] - max_k' s[b,q,k']) / sum_k' exp (s[b,q,k'] - max_k'' s[b,q,k''])
    out[b,q,e] = sum_d (sum_k p[b,q,k] V[b,k,d]) Wo[e,d] + bo[e]

  Two spellings of the scores are stated: the quotient above, and the one in which the factor 1/32 is folded into
  the query projection's weights and bias before the products are taken,
    s'[b,q,k] = sum_d (sum_d' x[b,q,d'] (Wq[d,d'] / 32) + bq[d] / 32) K[b,k,d].
  They are one function when every entry of x, Wq, bq, Wk, bk is a real number: sqrt 1024 = 32, a quotient by 32
  is a product with 1/32, and a real factor moves across finite sums of reals (it would not across infinities).
  Everything after the scores is the same function of them.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Activations [batch, position, feature]. -/
abbrev Act : Shape := ⟨3, ![4, 2048, 1024]⟩
/-- A projection's weights [output feature, input feature]. -/
abbrev Mat : Shape := ⟨2, ![1024, 1024]⟩
/-- A projection's bias [output feature]. -/
abbrev Bias : Shape := ⟨1, ![1024]⟩

/-! ## The float words the two programs spell -/

/-- The word of 1024.0. -/
abbrev w1024 : EReal := Ideal.ofBits .f32 0x44800000#32
/-- The word of 0.03125. -/
abbrev w32nd : EReal := Ideal.ofBits .f32 0x3D000000#32
/-- The word of minus infinity. -/
abbrev wNegInf : EReal := Ideal.ofBits .f32 0xFF800000#32

theorem w1024_eq : w1024 = ((1024 : ℝ) : EReal) := by
  simp [w1024, Ideal.ofBits, Ideal.ieee, -EReal.coe_mul]; norm_num

theorem w32nd_eq : w32nd = ((1 / 32 : ℝ) : EReal) := by
  simp [w32nd, Ideal.ofBits, Ideal.ieee, -EReal.coe_mul]; norm_num

theorem wNegInf_eq : wNegInf = ⊥ := by
  simp [wNegInf, Ideal.ofBits, Ideal.ieee]

/-- The square root of 1024 is 32. -/
theorem sqrt_w1024 : Ideal.sqrt w1024 = ((32 : ℝ) : EReal) := by
  rw [w1024_eq, Ideal.sqrt_coe, if_neg (by norm_num)]
  congr 1
  rw [show (1024 : ℝ) = 32 ^ 2 by norm_num, Real.sqrt_sq (by norm_num)]

/-! ## The layer, piece by piece -/

/-- A projection: y[b,s,e] = sum_d x[b,s,d] W[e,d] + β[e]. -/
def lin (x : Act.Idx → EReal) (W : Mat.Idx → EReal) (β : Bias.Idx → EReal) (b : Fin 4) (s : Fin 2048) (e : Fin 1024) : EReal :=
  (∑ d : Fin 1024, x (ix3 b s d) * W (ix2 e d)) + β (ix1 e)

/-- The scores as a quotient: (sum_d Q[b,q,d] K[b,k,d]) / sqrt 1024. -/
def scoreQuot (x : Act.Idx → EReal) (Wq : Mat.Idx → EReal) (bq : Bias.Idx → EReal) (Wk : Mat.Idx → EReal) (bk : Bias.Idx → EReal)
    (b : Fin 4) (q k : Fin 2048) : EReal :=
  Ideal.div (∑ d : Fin 1024, lin x Wq bq b q d * lin x Wk bk b k d) (Ideal.sqrt w1024)

/-- The scores with 1/32 folded into the query projection: sum_d Q'[b,q,d] K[b,k,d], Q' from Wq/32 and bq/32. -/
def scoreFold (x : Act.Idx → EReal) (Wq : Mat.Idx → EReal) (bq : Bias.Idx → EReal) (Wk : Mat.Idx → EReal) (bk : Bias.Idx → EReal)
    (b : Fin 4) (q k : Fin 2048) : EReal :=
  ∑ d : Fin 1024, lin x (fun j => Wq j * w32nd) (fun j => bq j * w32nd) b q d * lin x Wk bk b k d

/-- A row's maximum, from minus infinity. -/
def rowMax (s : Fin 2048 → EReal) : EReal := (Finset.univ : Finset (Fin 2048)).fold max wNegInf s

/-- A row's shifted exponentials. -/
def rowExp (s : Fin 2048 → EReal) (k : Fin 2048) : EReal := Ideal.exp (s k - rowMax s)

/-- A row's softmax weights. -/
def rowSoft (s : Fin 2048 → EReal) (k : Fin 2048) : EReal := Ideal.div (rowExp s k) (∑ k' : Fin 2048, rowExp s k')

/-- Everything after the scores: softmax over keys, the weighted sum of values, the output projection. -/
def attnAt (sc : Fin 4 → Fin 2048 → Fin 2048 → EReal) (V : Fin 4 → Fin 2048 → Fin 1024 → EReal)
    (Wo : Mat.Idx → EReal) (bo : Bias.Idx → EReal) (b : Fin 4) (q : Fin 2048) (e : Fin 1024) : EReal :=
  (∑ d : Fin 1024, (∑ k : Fin 2048, rowSoft (sc b q) k * V b k d) * Wo (ix2 e d)) + bo (ix1 e)

/-- The layer with the scores as a quotient (the reference's spelling). -/
def layerQuot (x : Act.Idx → EReal) (Wq : Mat.Idx → EReal) (bq : Bias.Idx → EReal) (Wk : Mat.Idx → EReal) (bk : Bias.Idx → EReal)
    (Wv : Mat.Idx → EReal) (bv : Bias.Idx → EReal) (Wo : Mat.Idx → EReal) (bo : Bias.Idx → EReal) : Act.Idx → EReal :=
  fun i => attnAt (scoreQuot x Wq bq Wk bk) (lin x Wv bv) Wo bo (i 0) (i 1) (i 2)

/-- The layer with 1/32 folded into the query projection (the kernel's spelling). -/
def layerFold (x : Act.Idx → EReal) (Wq : Mat.Idx → EReal) (bq : Bias.Idx → EReal) (Wk : Mat.Idx → EReal) (bk : Bias.Idx → EReal)
    (Wv : Mat.Idx → EReal) (bv : Bias.Idx → EReal) (Wo : Mat.Idx → EReal) (bo : Bias.Idx → EReal) : Act.Idx → EReal :=
  fun i => attnAt (scoreFold x Wq bq Wk bk) (lin x Wv bv) Wo bo (i 0) (i 1) (i 2)

/-! ## The law joining the two spellings -/

/-- The coercion of reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real inputs is real. -/
theorem lin_real (x : Act.Idx → EReal) (W : Mat.Idx → EReal) (β : Bias.Idx → EReal)
    (hx : ∀ i, ∃ r : ℝ, x i = r) (hW : ∀ i, ∃ r : ℝ, W i = r) (hβ : ∀ i, ∃ r : ℝ, β i = r) (b : Fin 4) (s : Fin 2048) (e : Fin 1024) :
    ∃ r : ℝ, lin x W β b s e = r := by
  choose xr hxr using hx
  choose Wr hWr using hW
  choose βr hβr using hβ
  refine ⟨(∑ d : Fin 1024, xr (ix3 b s d) * Wr (ix2 e d)) + βr (ix1 e), ?_⟩
  unfold lin
  simp only [hxr, hWr, hβr, EReal.coe_add, coe_sum, EReal.coe_mul]

/-- The factor 1/32 moves out of a bilinear form of reals: over abstract finite index types. -/
theorem fold_eq_quot {n m : ℕ} (x : Fin n → EReal) (W : Fin m → Fin n → EReal) (β K : Fin m → EReal)
    (hx : ∀ d, ∃ r : ℝ, x d = r) (hW : ∀ e d, ∃ r : ℝ, W e d = r) (hβ : ∀ e, ∃ r : ℝ, β e = r) (hK : ∀ e, ∃ r : ℝ, K e = r) :
    ∑ e : Fin m, ((∑ d : Fin n, x d * (W e d * w32nd)) + β e * w32nd) * K e
      = Ideal.div (∑ e : Fin m, ((∑ d : Fin n, x d * W e d) + β e) * K e) (Ideal.sqrt w1024) := by
  choose xr hxr using hx
  choose Wr hWr using hW
  choose βr hβr using hβ
  choose Kr hKr using hK
  rw [sqrt_w1024, Ideal.div_coe (by norm_num : (32 : ℝ) ≠ 0), w32nd_eq]
  simp only [hxr, hWr, hβr, hKr]
  have hL : ∀ e : Fin m, ((∑ d : Fin n, (xr d : EReal) * ((Wr e d : EReal) * ((1 / 32 : ℝ) : EReal))) + (βr e : EReal) * ((1 / 32 : ℝ) : EReal)) * (Kr e : EReal)
      = (((((∑ d : Fin n, xr d * Wr e d) + βr e) * Kr e) * (1 / 32) : ℝ) : EReal) := by
    intro e
    have h1 : (∑ d : Fin n, (xr d : EReal) * ((Wr e d : EReal) * ((1 / 32 : ℝ) : EReal))) = (((∑ d : Fin n, xr d * Wr e d) * (1 / 32) : ℝ) : EReal) := by
      rw [Finset.sum_mul, coe_sum]
      exact Finset.sum_congr rfl fun d _ => by rw [← EReal.coe_mul, ← EReal.coe_mul]; congr 1; ring
    rw [h1, ← EReal.coe_mul, ← EReal.coe_add, ← EReal.coe_mul]
    congr 1; ring
  have hR : ∀ e : Fin m, ((∑ d : Fin n, (xr d : EReal) * (Wr e d : EReal)) + (βr e : EReal)) * (Kr e : EReal)
      = ((((∑ d : Fin n, xr d * Wr e d) + βr e) * Kr e : ℝ) : EReal) := by
    intro e
    have h1 : (∑ d : Fin n, (xr d : EReal) * (Wr e d : EReal)) = ((∑ d : Fin n, xr d * Wr e d : ℝ) : EReal) := by
      rw [coe_sum]; exact Finset.sum_congr rfl fun d _ => (EReal.coe_mul _ _).symm
    rw [h1, ← EReal.coe_add, ← EReal.coe_mul]
  simp only [hL, hR]
  rw [← coe_sum, ← coe_sum, ← EReal.coe_mul, Finset.sum_mul]

/-- With real x, Wq, bq, Wk, bk the two spellings of the scores agree. -/
theorem scoreFold_eq_scoreQuot (x : Act.Idx → EReal) (Wq : Mat.Idx → EReal) (bq : Bias.Idx → EReal) (Wk : Mat.Idx → EReal) (bk : Bias.Idx → EReal)
    (hx : ∀ i, ∃ r : ℝ, x i = r) (hWq : ∀ i, ∃ r : ℝ, Wq i = r) (hbq : ∀ i, ∃ r : ℝ, bq i = r)
    (hWk : ∀ i, ∃ r : ℝ, Wk i = r) (hbk : ∀ i, ∃ r : ℝ, bk i = r) :
    scoreFold x Wq bq Wk bk = scoreQuot x Wq bq Wk bk := by
  funext b q k
  unfold scoreFold scoreQuot
  exact fold_eq_quot (fun d => x (ix3 b q d)) (fun e d => Wq (ix2 e d)) (fun e => bq (ix1 e)) (fun e => lin x Wk bk b k e)
    (fun d => hx _) (fun e d => hWq _) (fun e => hbq _) (fun e => lin_real x Wk bk hx hWk hbk b k e)

/-- Hence, on real inputs, the two spellings of the layer are one function. -/
theorem layerFold_eq_layerQuot (x : Act.Idx → EReal) (Wq : Mat.Idx → EReal) (bq : Bias.Idx → EReal) (Wk : Mat.Idx → EReal) (bk : Bias.Idx → EReal)
    (Wv : Mat.Idx → EReal) (bv : Bias.Idx → EReal) (Wo : Mat.Idx → EReal) (bo : Bias.Idx → EReal)
    (hx : ∀ i, ∃ r : ℝ, x i = r) (hWq : ∀ i, ∃ r : ℝ, Wq i = r) (hbq : ∀ i, ∃ r : ℝ, bq i = r)
    (hWk : ∀ i, ∃ r : ℝ, Wk i = r) (hbk : ∀ i, ∃ r : ℝ, bk i = r) :
    layerFold x Wq bq Wk bk Wv bv Wo bo = layerQuot x Wq bq Wk bk Wv bv Wo bo := by
  unfold layerFold layerQuot
  rw [scoreFold_eq_scoreQuot x Wq bq Wk bk hx hWq hbq hWk hbk]

end Cert.Attn

end
-- ==== Proof.KernelPayload.lean ====
/-
  The two kernel bodies' stored values, read at an index, on the extended reals.

  Projection body: from a block x of 512 rows, a 1024 x 1024 column slice w of the weight and a 1 x 1024 slice β of
  the bias it stores  (x w)[r,e] + β[0,e] = sum_d x[r,d] w[d,e] + β[0,e].

  Attention body: from a block q of 512 query rows, a batch's keys k and values v (2048 rows each), the output
  weight wo and bias bo it stores, at row p and feature e,
    sum_d (sum_j softmax_j (sum_d' q[p,d'] k[j,d']) v[j,d]) wo[d,e] + bo[0,e],
  the softmax of a row being exp (s_j - max s) / sum_j' exp (s_j' - max s) with the maximum taken from minus infinity.
-/
import proofs.«150292_j15582141350417_2_alg».proof.Proof.Gen.KernelIdeal.Skeleton
import proofs.«150292_j15582141350417_2_alg».proof.Proof.KernelOps
import proofs.«150292_j15582141350417_2_alg».proof.Proof.AttnSpec

noncomputable section

namespace Cert.KernelIdeal.AttnValue

open Cert.KernelIdeal Cert.KernelIdeal.Gen Idealize.ShloMosaic Idealize.ShloMosaic.ValueIdx

/-! ## The projection body -/

/-- One projection, as the body spells it: the rows (narrowed, which changes nothing on the extended reals) times a
    column slice of the weight, plus the bias slice repeated over the rows. -/
def projV (x : Vec Ideal S512x1024 .f32) (w : Vec Ideal S1024x1024 .bf16) (β : Vec Ideal S1x1024 .f32) : FVec Ideal S512x1024 .f32 :=
  addf (FloatOps.matmul (φ₁ := .bf16) (φ₂ := .bf16) dot_S512x1024_S1024x1024_S512x1024_1_0_0_1_n_n none (k0_pay1 x) w (constant (F := Ideal) S512x1024 .f32 0x00000000#32))
    (broadcastTo S512x1024 β broadcasts_S1x1024_S512x1024)

theorem projV_apply (x : Vec Ideal S512x1024 .f32) (w : Vec Ideal S1024x1024 .bf16) (β : Vec Ideal S1x1024 .f32) (r : Fin 512) (e : Fin 1024) :
    projV x w β (ix2 r e) = (∑ d : Fin 1024, x (ix2 r d) * w (ix2 d e)) + β (ix2 (0 : Fin 1) e) := by
  unfold projV
  rw [addf_apply, mm_proj_apply, broadcastTo_1b_ab_apply]
  unfold k0_pay1
  simp only [shapeCast_self]
  rfl

theorem k0_pay2_eq (x : Vec Ideal S512x1024 .f32) (w : Vec Ideal S1024x1024 .bf16) (β : Vec Ideal S1x1024 .f32) :
    k0_pay2 x w β = projV x w β := by
  unfold k0_pay2 projV
  simp only [shapeCast_self]
  rfl
theorem k0_pay3_eq (x : Vec Ideal S512x1024 .f32) (w : Vec Ideal S1024x1024 .bf16) (β : Vec Ideal S1x1024 .f32) :
    k0_pay3 x w β = projV x w β := by
  unfold k0_pay3 projV
  simp only [shapeCast_self]
  rfl
theorem k0_pay4_eq (x : Vec Ideal S512x1024 .f32) (w : Vec Ideal S1024x1024 .bf16) (β : Vec Ideal S1x1024 .f32) :
    k0_pay4 x w β = projV x w β := by
  unfold k0_pay4 projV
  simp only [shapeCast_self]
  rfl

/-- The same at any index of the block. -/
theorem projV_apply' (x : Vec Ideal S512x1024 .f32) (w : Vec Ideal S1024x1024 .bf16) (β : Vec Ideal S1x1024 .f32) (j : S512x1024.Idx) :
    projV x w β j = (∑ d : Fin 1024, x (ix2 (j 0) d) * w (ix2 d (j 1))) + β (ix2 (0 : Fin 1) (j 1)) := by
  exact (congrArg (projV x w β) (eq_ix2 j)).trans (projV_apply x w β (j 0) (j 1))

/-! ## The attention body, one vector at a time -/

section Attn
variable (x0 : Vec Ideal S1x512x1024 .bf16) (x1 x2 : Vec Ideal S1x2048x1024 .bf16) (x3 : Vec Ideal S1024x1024 .bf16) (x4 : Vec Ideal S1x1024 .f32)

/-- The scores of the query block against the batch's keys. -/
def scoresV : FVec Ideal S512x2048 .f32 :=
  FloatOps.matmul (φ₁ := .bf16) (φ₂ := .bf16) dot_S512x1024_S2048x1024_S512x2048_1_1_0_0_n_n none
    (shapeCast S512x1024 x0 shapeCasts_S1x512x1024_S512x1024 : FVec Ideal S512x1024 .bf16)
    (shapeCast S2048x1024 x1 shapeCasts_S1x2048x1024_S2048x1024 : FVec Ideal S2048x1024 .bf16)
    (constant (F := Ideal) S512x2048 .f32 0x00000000#32)

/-- Each row's maximum. -/
def maxV : FVec Ideal S512 .f32 :=
  multiReduction .maximumf [1] S512 (scoresV x0 x1) 0xFF800000#32 reduces_S512x2048_S512 (.inl rfl) rfl

/-- The exponentials of the scores less their row's maximum. -/
def expV : FVec Ideal S512x2048 .f32 :=
  exp (subf (scoresV x0 x1) (broadcastTo S512x2048 (shapeCast S512x1 (maxV x0 x1) shapeCasts_S512_S512x1) broadcasts_S512x1_S512x2048))

/-- Each row's sum of exponentials. -/
def sumV : FVec Ideal S512 .f32 :=
  multiReduction .add [1] S512 (expV x0 x1) 0x00000000#32 reduces_S512x2048_S512 (.inl rfl) rfl

/-- The softmax weights. -/
def softV : FVec Ideal S512x2048 .f32 :=
  divf (expV x0 x1) (broadcastTo S512x2048 (shapeCast S512x1 (sumV x0 x1) shapeCasts_S512_S512x1) broadcasts_S512x1_S512x2048)

/-- The weighted sums of the batch's values. -/
def ctxV : FVec Ideal S512x1024 .f32 :=
  FloatOps.matmul (φ₁ := .bf16) (φ₂ := .bf16) dot_S512x2048_S2048x1024_S512x1024_1_0_0_1_n_n none
    (truncf .bf16 (softV x0 x1) bitsLt_bf16_f32)
    (shapeCast S2048x1024 x2 shapeCasts_S1x2048x1024_S2048x1024 : FVec Ideal S2048x1024 .bf16)
    (constant (F := Ideal) S512x1024 .f32 0x00000000#32)

/-- The output projection with its bias. -/
def outV : FVec Ideal S512x1024 .f32 :=
  addf (FloatOps.matmul (φ₁ := .bf16) (φ₂ := .bf16) dot_S512x1024_S1024x1024_S512x1024_1_0_0_1_n_n none (truncf .bf16 (ctxV x0 x1 x2) bitsLt_bf16_f32) x3 (constant (F := Ideal) S512x1024 .f32 0x00000000#32))
    (broadcastTo S512x1024 x4 broadcasts_S1x1024_S512x1024)

/-- The stored value is this chain, laid out with a leading unit axis. -/
theorem k1_pay1_eq : k1_pay1 x0 x1 x2 x3 x4 = shapeCast S1x512x1024 (outV x0 x1 x2 x3 x4) shapeCasts_S512x1024_S1x512x1024 := by
  unfold k1_pay1 outV ctxV softV sumV expV maxV scoresV
  simp only [shapeCast_self]

/-- The query rows and key rows the scores pair. -/
def qRow (p : Fin 512) (d : Fin 1024) : EReal := x0 (ix3 (0 : Fin 1) p d)
def kRow (j : Fin 2048) (d : Fin 1024) : EReal := x1 (ix3 (0 : Fin 1) j d)
def vRow (j : Fin 2048) (d : Fin 1024) : EReal := x2 (ix3 (0 : Fin 1) j d)

/-- Row p's scores as a function of the key. -/
def sRow (p : Fin 512) (j : Fin 2048) : EReal := ∑ d : Fin 1024, qRow x0 p d * kRow x1 j d

theorem scoresV_apply (p : Fin 512) (j : Fin 2048) : scoresV x0 x1 (ix2 p j) = sRow x0 x1 p j := by
  unfold scoresV sRow qRow kRow
  rw [mm_qk_apply]
  refine Finset.sum_congr rfl fun d _ => ?_
  rw [shapeCast_1ab_ab_apply, shapeCast_1ab_ab_apply]

theorem maxV_apply (p : Fin 512) : maxV x0 x1 (ix1 p) = Cert.Attn.rowMax (sRow x0 x1 p) := by
  unfold maxV Cert.Attn.rowMax
  refine (rowmax_apply (scoresV x0 x1) reduces_S512x2048_S512 (.inl rfl) rfl p).trans ?_
  refine congrArg (fun f => (Finset.univ : Finset (Fin 2048)).fold max (Ideal.ofBits .f32 0xFF800000#32) f) ?_
  funext j
  exact scoresV_apply x0 x1 p j

theorem expV_apply (p : Fin 512) (j : Fin 2048) : expV x0 x1 (ix2 p j) = Cert.Attn.rowExp (sRow x0 x1 p) j := by
  unfold expV Cert.Attn.rowExp
  show Ideal.exp (scoresV x0 x1 (ix2 p j) - broadcastTo S512x2048 (shapeCast S512x1 (maxV x0 x1) shapeCasts_S512_S512x1) broadcasts_S512x1_S512x2048 (ix2 p j)) = _
  rw [col_bcast_apply, col_cast_apply, scoresV_apply, maxV_apply]

theorem sumV_apply (p : Fin 512) : sumV x0 x1 (ix1 p) = ∑ j : Fin 2048, Cert.Attn.rowExp (sRow x0 x1 p) j := by
  unfold sumV
  refine (rowsum_apply (expV x0 x1) reduces_S512x2048_S512 (.inl rfl) rfl p).trans ?_
  exact Finset.sum_congr rfl fun j _ => expV_apply x0 x1 p j

theorem softV_apply (p : Fin 512) (j : Fin 2048) : softV x0 x1 (ix2 p j) = Cert.Attn.rowSoft (sRow x0 x1 p) j := by
  unfold softV Cert.Attn.rowSoft
  rw [divf_apply, col_bcast_apply, col_cast_apply, expV_apply, sumV_apply]

theorem ctxV_apply (p : Fin 512) (d : Fin 1024) :
    ctxV x0 x1 x2 (ix2 p d) = ∑ j : Fin 2048, Cert.Attn.rowSoft (sRow x0 x1 p) j * vRow x2 j d := by
  unfold ctxV vRow
  rw [mm_pv_apply]
  refine Finset.sum_congr rfl fun j _ => ?_
  rw [shapeCast_1ab_ab_apply, truncf_apply, softV_apply]

theorem outV_apply (p : Fin 512) (e : Fin 1024) :
    outV x0 x1 x2 x3 x4 (ix2 p e)
      = (∑ d : Fin 1024, (∑ j : Fin 2048, Cert.Attn.rowSoft (sRow x0 x1 p) j * vRow x2 j d) * x3 (ix2 d e)) + x4 (ix2 (0 : Fin 1) e) := by
  unfold outV
  rw [addf_apply, mm_proj_apply, broadcastTo_1b_ab_apply]
  refine congrArg (· + x4 (ix2 (0 : Fin 1) e)) (Finset.sum_congr rfl fun d _ => ?_)
  rw [truncf_apply, ctxV_apply]

/-- The attention body's stored value at row p, feature e (whatever the unit coordinate). -/
theorem k1_pay1_apply (u : Fin 1) (p : Fin 512) (e : Fin 1024) :
    k1_pay1 x0 x1 x2 x3 x4 (ix3 u p e)
      = (∑ d : Fin 1024, (∑ j : Fin 2048, Cert.Attn.rowSoft (sRow x0 x1 p) j * vRow x2 j d) * x3 (ix2 d e)) + x4 (ix2 (0 : Fin 1) e) := by
  rw [k1_pay1_eq, shapeCast_ab_1ab_apply, outV_apply]

/-- The same at any index of the block. -/
theorem k1_pay1_apply' (j : S1x512x1024.Idx) :
    k1_pay1 x0 x1 x2 x3 x4 j
      = (∑ d : Fin 1024, (∑ i : Fin 2048, Cert.Attn.rowSoft (sRow x0 x1 (j 1)) i * vRow x2 i d) * x3 (ix2 d (j 2))) + x4 (ix2 (0 : Fin 1) (j 2)) := by
  exact (congrArg (k1_pay1 x0 x1 x2 x3 x4) (eq_ix3 j)).trans (k1_pay1_apply x0 x1 x2 x3 x4 (j 0) (j 1) (j 2))

end Attn

end Cert.KernelIdeal.AttnValue

end
-- ==== Proof.AttnArrays.lean ====
/-
  The attention region's result array as ONE function of the five arrays the region finds at entry:
  queries Q, keys K, values Vv (each [4, 2048, 1024]), the transposed output weight Wt [1024, 1024] and
  the output bias row β [1, 1024]:

    out[b,q,e] = sum_d (sum_j softmax_j (sum_d' Q[b,q,d'] K[b,j,d']) Vv[b,j,d]) Wt[d,e] + β[0,e].

  Point t of the 4 x 4 grid handles batch t / 4 and query rows 512 (t % 4) .. 512 (t % 4) + 511; it reads the whole
  batch's keys and values and the whole weight and bias, and writes back its 1 x 512 x 1024 block. The sixteen blocks
  tile the result array.
-/
import proofs.«150292_j15582141350417_2_alg».proof.Proof.IdealBlocks
import proofs.«150292_j15582141350417_2_alg».proof.Proof.KernelPayload

set_option maxRecDepth 16384

noncomputable section

namespace Cert.KernelIdeal.AttnValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Attention of batch b, query row q, output feature e. -/
def attnOf (Q K Vv : S4x2048x1024.Idx → EReal) (Wt : S1024x1024.Idx → EReal) (β : S1x1024.Idx → EReal)
    (b : Fin 4) (q : Fin 2048) (e : Fin 1024) : EReal :=
  (∑ d : Fin 1024, (∑ j : Fin 2048,
      Cert.Attn.rowSoft (fun j' : Fin 2048 => ∑ d' : Fin 1024, Q (ix3 b q d') * K (ix3 b j' d')) j * Vv (ix3 b j d)) * Wt (ix2 d e))
    + β (ix2 (0 : Fin 1) e)

/-- The whole result array. -/
def attnArr (Q K Vv : S4x2048x1024.Idx → EReal) (Wt : S1024x1024.Idx → EReal) (β : S1x1024.Idx → EReal) : S4x2048x1024.Idx → EReal :=
  fun i => attnOf Q K Vv Wt β (i 0) (i 1) (i 2)

/-- One point's stored entry is the attention of the arrays, once each block entry the body reads is the array entry at
    batch B, query row R, feature E (stated over plain vectors, instantiated at the windows' blocks below). -/
theorem attn_at_point (x0 : Vec Ideal S1x512x1024 .bf16) (x1 x2 : Vec Ideal S1x2048x1024 .bf16) (x3 : Vec Ideal S1024x1024 .bf16) (x4 : Vec Ideal S1x1024 .f32)
    (Q K Vv : S4x2048x1024.Idx → EReal) (Wt : S1024x1024.Idx → EReal) (β : S1x1024.Idx → EReal)
    (B : Fin 4) (R : Fin 2048) (E : Fin 1024) (p : Fin 512) (e : Fin 1024)
    (h0 : ∀ d' : Fin 1024, x0 (ix3 (0 : Fin 1) p d') = Q (ix3 B R d'))
    (h1 : ∀ (j' : Fin 2048) (d' : Fin 1024), x1 (ix3 (0 : Fin 1) j' d') = K (ix3 B j' d'))
    (h2 : ∀ (j' : Fin 2048) (d : Fin 1024), x2 (ix3 (0 : Fin 1) j' d) = Vv (ix3 B j' d))
    (h3 : ∀ d : Fin 1024, x3 (ix2 d e) = Wt (ix2 d E))
    (h4 : x4 (ix2 (0 : Fin 1) e) = β (ix2 (0 : Fin 1) E)) :
    (∑ d : Fin 1024, (∑ i : Fin 2048, Cert.Attn.rowSoft (sRow x0 x1 p) i * vRow x2 i d) * x3 (ix2 d e)) + x4 (ix2 (0 : Fin 1) e)
      = attnOf Q K Vv Wt β B R E := by
  have hs : sRow x0 x1 p = fun j' : Fin 2048 => ∑ d' : Fin 1024, Q (ix3 B R d') * K (ix3 B j' d') :=
    funext fun j' => Finset.sum_congr rfl fun d' _ => by
      show x0 (ix3 (0 : Fin 1) p d') * x1 (ix3 (0 : Fin 1) j' d') = _
      rw [h0 d', h1 j' d']
  unfold attnOf
  rw [hs, h4]
  refine congrArg (· + β (ix2 (0 : Fin 1) E)) (Finset.sum_congr rfl fun d _ => ?_)
  rw [h3 d]
  refine congrArg (· * Wt (ix2 d E)) (Finset.sum_congr rfl fun i _ => ?_)
  show _ * x2 (ix3 (0 : Fin 1) i d) = _
  rw [h2 i d]

/-- The printed index maps over the grid: the query window moves with the result window; the key and value windows
    follow its batch and stay at row block 0; the weight and bias windows stay put; the result's block indices are in range. -/
theorem index_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) ≤ 3 ∧ win1_5.index t (1 : Fin 3) ≤ 3 ∧ win1_5.index t (2 : Fin 3) = 0 :=
  (by decide +kernel : ∀ t : Fin grid1.N, _)

/-- Every (batch, row block) is some point's. -/
theorem index_onto : ∀ (q0 : Fin 4) (q1 : Fin 4), ∃ t : Fin cfg1.N, win1_5.index t = ![q0.val, q1.val, 0] :=
  (by decide +kernel : ∀ (q0 : Fin 4) (q1 : Fin 4), ∃ t : Fin grid1.N, win1_5.index t = ![q0.val, q1.val, 0])

/-- What point t writes back is block t of the attention of the arrays the region finds. -/
theorem flushed_attn (c : Dev nD) (t : Fin cfg1.N) :
    (dat1 V c).flushed 5 t
      = ((cfg1.win 5).blk t).view.read (Elt Ideal) (attnArr (V c main_v16) (V c main_v17) (V c main_v18) (V c main_v12) (V c main_v13)) := by
  show (cfg1.win 5).cut (grid1.coords t) ((dat1 V c).after 5 t) = _
  rw [after1_5]
  unfold out1_5
  rw [View.canon_unit_zero zeros3]
  simp only [View.ld_unit_zero (S := S1x512x1024) zeros3, View.ld_unit_zero (S := S1x2048x1024) zeros3,
    View.ld_unit_zero (S := S1024x1024) zeros2, View.ld_unit_zero (S := S1x1024) zeros2]
  obtain ⟨a0, a1, a2, b0, b1, b2, c0, c1, c2, d0, d1, e0, e1, f0, f1, f2⟩ := index_facts t
  funext j
  refine (k1_pay1_apply' (iblk1 V c 0 t) (iblk1 V c 1 t) (iblk1 V c 2 t) (iblk1 V c 3 t) (iblk1 V c 4 t) j).trans ?_
  have hj0 : (j 0).val < 1 := (j 0).isLt
  have hj1 : (j 1).val < 512 := (j 1).isLt
  have hj2 : (j 2).val < 1024 := (j 2).isLt
  exact attn_at_point (iblk1 V c 0 t) (iblk1 V c 1 t) (iblk1 V c 2 t) (iblk1 V c 3 t) (iblk1 V c 4 t)
    (V c main_v16) (V c main_v17) (V c main_v18) (V c main_v12) (V c main_v13)
    ((((cfg1.win 5).blk t).view.emb j) 0) ((((cfg1.win 5).blk t).view.emb j) 1) ((((cfg1.win 5).blk t).view.emb j) 2) (j 1) (j 2)
    (fun d' => congrArg (V c main_v16) (funext fun a => Fin.ext (by
      match a with
      | ⟨0, _⟩ => show win1_0.index t (0 : Fin 3) * 1 + 1 * 0 = win1_5.index t (0 : Fin 3) * 1 + 1 * (j 0).val; omega
      | ⟨1, _⟩ => show win1_0.index t (1 : Fin 3) * 512 + 1 * (j 1).val = win1_5.index t (1 : Fin 3) * 512 + 1 * (j 1).val; omega
      | ⟨2, _⟩ => show win1_0.index t (2 : Fin 3) * 1024 + 1 * d'.val = d'.val; omega)))
    (fun j' d' => congrArg (V c main_v17) (funext fun a => Fin.ext (by
      match a with
      | ⟨0, _⟩ => show win1_1.index t (0 : Fin 3) * 1 + 1 * 0 = win1_5.index t (0 : Fin 3) * 1 + 1 * (j 0).val; omega
      | ⟨1, _⟩ => show win1_1.index t (1 : Fin 3) * 2048 + 1 * j'.val = j'.val; omega
      | ⟨2, _⟩ => show win1_1.index t (2 : Fin 3) * 1024 + 1 * d'.val = d'.val; omega)))
    (fun j' d => congrArg (V c main_v18) (funext fun a => Fin.ext (by
      match a with
      | ⟨0, _⟩ => show win1_2.index t (0 : Fin 3) * 1 + 1 * 0 = win1_5.index t (0 : Fin 3) * 1 + 1 * (j 0).val; omega
      | ⟨1, _⟩ => show win1_2.index t (1 : Fin 3) * 2048 + 1 * j'.val = j'.val; omega
      | ⟨2, _⟩ => show win1_2.index t (2 : Fin 3) * 1024 + 1 * d.val = d.val; omega)))
    (fun d => congrArg (V c main_v12) (funext fun a => Fin.ext (by
      match a with
      | ⟨0, _⟩ => show win1_3.index t (0 : Fin 2) * 1024 + 1 * d.val = d.val; omega
      | ⟨1, _⟩ => show win1_3.index t (1 : Fin 2) * 1024 + 1 * (j 2).val = win1_5.index t (2 : Fin 3) * 1024 + 1 * (j 2).val; omega)))
    (congrArg (V c main_v13) (funext fun a => Fin.ext (by
      match a with
      | ⟨0, _⟩ => show win1_4.index t (0 : Fin 2) * 1 + 1 * 0 = 0; omega
      | ⟨1, _⟩ => show win1_4.index t (1 : Fin 2) * 1024 + 1 * (j 2).val = win1_5.index t (2 : Fin 3) * 1024 + 1 * (j 2).val; omega)))

/-- An index of the result array is in point t's block iff each coordinate is in the block's range on its axis. -/
theorem mem_block (t : Fin cfg1.N) (i : S4x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v19).slice (win1_5.rect t)).set ↔ _
  rw [View.set_slice_whole, Rect.mem_set_unit]
  exact Iff.rfl

/-- Every index of the result array lies in the block of the point for its batch and its block of 512 query rows. -/
theorem blocks_cover (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- The result array after the region: the attention of the five arrays the region found. -/
theorem out_array (c : Dev nD) :
    (dat1 V c).arrAt 5 cfg1.N = attnArr (V c main_v16) (V c main_v17) (V c main_v18) (V c main_v12) (V c main_v13) :=
  (dat1 V c).arrAt_eq_of_cover 5 _ (fun t _ => flushed_attn V c t) blocks_cover

end Cert.KernelIdeal.AttnValue

end
-- ==== Proof.QkvArrays.lean ====
/-
  The projection region's three output arrays, each as ONE function of the region's entry arrays.

  The region runs over sixteen points; point t reads rows 512 t .. 512 t + 511 of the 8192 x 1024 input, the whole
  1024 x 3072 weight and 1 x 3072 bias, and writes rows 512 t .. 512 t + 511 of each of the three outputs: the rows
  times the weight's columns from 0, from 1024 and from 2048, plus the bias's entries from the same column. The sixteen
  row blocks tile the 8192 rows (row R lies in block R / 512), so after the region each output array is, at every
  (R, e), the sum over d of X[R,d] W[d, off+e], plus B[0, off+e].
-/
import proofs.«150292_j15582141350417_2_alg».proof.Proof.IdealBlocks
import proofs.«150292_j15582141350417_2_alg».proof.Proof.KernelPayload
import Idealize.ShloMosaic.Lib.Pipeline.Value

noncomputable section

namespace Cert.KernelIdeal.AttnValue

open Cert.KernelIdeal Cert.KernelIdeal.Gen Cert.KernelIdeal.Hand Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- One projection of the whole input at row R, feature e: the sum over d of X[R,d] Wc[d, off+e], plus Bc[0, off+e],
    the columns from off of the concatenated weight and bias. -/
def projAt (off : ℕ) (hoff : off + 1024 ≤ 3072) (X : S8192x1024.Idx → EReal) (Wc : S1024x3072.Idx → EReal) (Bc : S1x3072.Idx → EReal)
    (R : Fin 8192) (e : Fin 1024) : EReal :=
  (∑ d : Fin 1024, X (ix2 R d) * Wc (ix2 d ⟨off + e.val, by omega⟩)) + Bc (ix2 (0 : Fin 1) ⟨off + e.val, by omega⟩)

/-- The same as an array over all rows and features. -/
def projArr (off : ℕ) (hoff : off + 1024 ≤ 3072) (X : S8192x1024.Idx → EReal) (Wc : S1024x3072.Idx → EReal) (Bc : S1x3072.Idx → EReal) :
    S8192x1024.Idx → EReal := fun i => projAt off hoff X Wc Bc (i 0) (i 1)

theorem hz : (![0, 0] : Fin 2 → Nat) = fun _ => 0 := funext fun a => by fin_cases a <;> rfl

/-- The index maps over the sixteen points: the input rows and the three outputs are at block row t, column block 0;
    the weight and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The query array (window 3) -/

/-- What point t writes back to window 3 is block t of the query projection of the whole entry arrays: the body's
    stored value at a block index is the projection of the point's input blocks, the input rows' block sits at the same
    block row t as the output's, and the weight's and bias's one block is the whole array, read from column 0. -/
theorem flushed_q_eq (c : Dev nD) (t : Fin cfg0.N) :
    (dat0 V c).flushed 3 t = ((cfg0.win 3).blk t).view.read (Elt Ideal) (projArr 0 (by omega) (V c main_v14) (V c main_v8) (V c main_v10)) := by
  show (cfg0.win 3).cut (grid0.coords t) ((dat0 V c).after 3 t) = _
  rw [after0_3]
  unfold out0_3
  rw [View.canon_unit_zero hz]
  rw [k0_pay2_eq]
  funext j
  refine (projV_apply' _ _ _ _).trans ?_
  obtain ⟨e00, e01, e10, e11, e20, e21, e30, e31, e40, e41, e50, e51⟩ := idx_facts t
  show _ = projAt 0 (by omega) (V c main_v14) (V c main_v8) (V c main_v10) ((((cfg0.win 3).blk t).view.emb j) 0) ((((cfg0.win 3).blk t).view.emb j) 1)
  unfold projAt
  have hj0 : (j 0).val < 512 := (j 0).isLt
  have hj1 : (j 1).val < 1024 := (j 1).isLt
  refine congrArg₂ (· + ·) (Finset.sum_congr rfl fun d _ => congrArg₂ (· * ·) ?_ ?_) ?_
  · refine congrArg (V c main_v14) (funext fun a => Fin.ext ?_)
    match a with
    | ⟨0, _⟩ =>
      show win0_0.index t (0 : Fin 2) * 512 + 1 * (0 + 1 * (j 0).val) = win0_3.index t (0 : Fin 2) * 512 + 1 * (j 0).val
      omega
    | ⟨1, _⟩ =>
      show win0_0.index t (1 : Fin 2) * 1024 + 1 * (0 + 1 * d.val) = d.val
      omega
  · refine congrArg (V c main_v8) (funext fun a => Fin.ext ?_)
    match a with
    | ⟨0, _⟩ =>
      show win0_1.index t (0 : Fin 2) * 1024 + 1 * (0 + 1 * d.val) = d.val
      omega
    | ⟨1, _⟩ =>
      show win0_1.index t (1 : Fin 2) * 3072 + 1 * (0 + 1 * (j 1).val) = 0 + (win0_3.index t (1 : Fin 2) * 1024 + 1 * (j 1).val)
      omega
  · refine congrArg (V c main_v10) (funext fun a => Fin.ext ?_)
    match a with
    | ⟨0, _⟩ =>
      show win0_2.index t (0 : Fin 2) * 1 + 1 * (0 + 1 * 0) = 0
      omega
    | ⟨1, _⟩ =>
      show win0_2.index t (1 : Fin 2) * 3072 + 1 * (0 + 1 * (j 1).val) = 0 + (win0_3.index t (1 : Fin 2) * 1024 + 1 * (j 1).val)
      omega

/-- An index of the query array is in point t's block iff each coordinate is in the block's range on its axis. -/
theorem mem_blk_q (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v15_0).slice (win0_3.rect t)).set ↔ _
  rw [View.set_slice_whole, Rect.mem_set_unit]
  exact Iff.rfl

/-- Every index of the query array is in some point's block: row R is in the block of point R / 512. -/
theorem cover_q (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := by decide
  obtain ⟨t, ht⟩ : ∃ t : Fin cfg0.N, t.val = (i 0).val / 512 := ⟨⟨(i 0).val / 512, by omega⟩, rfl⟩
  refine ⟨t, flush0_3 t, ?_⟩
  rw [mem_blk_q]
  obtain ⟨e00, e01, e10, e11, e20, e21, e30, e31, e40, e41, e50, e51⟩ := idx_facts t
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The query array after the region: the projection from column 0 of the region's entry arrays, at every index. -/
theorem q_array (c : Dev nD) :
    (dat0 V c).arrAt 3 cfg0.N = projArr 0 (by omega) (V c main_v14) (V c main_v8) (V c main_v10) :=
  (dat0 V c).arrAt_eq_of_cover 3 _ (fun t _ => flushed_q_eq V c t) cover_q

/-! ## The key array (window 4) -/

/-- What point t writes back to window 4 is block t of the key projection of the whole entry arrays: the body's
    stored value at a block index is the projection of the point's input blocks, the input rows' block sits at the same
    block row t as the output's, and the weight's and bias's one block is the whole array, read from column 1024. -/
theorem flushed_k_eq (c : Dev nD) (t : Fin cfg0.N) :
    (dat0 V c).flushed 4 t = ((cfg0.win 4).blk t).view.read (Elt Ideal) (projArr 1024 (by omega) (V c main_v14) (V c main_v8) (V c main_v10)) := by
  show (cfg0.win 4).cut (grid0.coords t) ((dat0 V c).after 4 t) = _
  rw [after0_4]
  unfold out0_4
  rw [View.canon_unit_zero hz]
  rw [k0_pay3_eq]
  funext j
  refine (projV_apply' _ _ _ _).trans ?_
  obtain ⟨e00, e01, e10, e11, e20, e21, e30, e31, e40, e41, e50, e51⟩ := idx_facts t
  show _ = projAt 1024 (by omega) (V c main_v14) (V c main_v8) (V c main_v10) ((((cfg0.win 4).blk t).view.emb j) 0) ((((cfg0.win 4).blk t).view.emb j) 1)
  unfold projAt
  have hj0 : (j 0).val < 512 := (j 0).isLt
  have hj1 : (j 1).val < 1024 := (j 1).isLt
  refine congrArg₂ (· + ·) (Finset.sum_congr rfl fun d _ => congrArg₂ (· * ·) ?_ ?_) ?_
  · refine congrArg (V c main_v14) (funext fun a => Fin.ext ?_)
    match a with
    | ⟨0, _⟩ =>
      show win0_0.index t (0 : Fin 2) * 512 + 1 * (0 + 1 * (j 0).val) = win0_4.index t (0 : Fin 2) * 512 + 1 * (j 0).val
      omega
    | ⟨1, _⟩ =>
      show win0_0.index t (1 : Fin 2) * 1024 + 1 * (0 + 1 * d.val) = d.val
      omega
  · refine congrArg (V c main_v8) (funext fun a => Fin.ext ?_)
    match a with
    | ⟨0, _⟩ =>
      show win0_1.index t (0 : Fin 2) * 1024 + 1 * (0 + 1 * d.val) = d.val
      omega
    | ⟨1, _⟩ =>
      show win0_1.index t (1 : Fin 2) * 3072 + 1 * (1024 + 1 * (j 1).val) = 1024 + (win0_4.index t (1 : Fin 2) * 1024 + 1 * (j 1).val)
      omega
  · refine congrArg (V c main_v10) (funext fun a => Fin.ext ?_)
    match a with
    | ⟨0, _⟩ =>
      show win0_2.index t (0 : Fin 2) * 1 + 1 * (0 + 1 * 0) = 0
      omega
    | ⟨1, _⟩ =>
      show win0_2.index t (1 : Fin 2) * 3072 + 1 * (1024 + 1 * (j 1).val) = 1024 + (win0_4.index t (1 : Fin 2) * 1024 + 1 * (j 1).val)
      omega

/-- An index of the key array is in point t's block iff each coordinate is in the block's range on its axis. -/
theorem mem_blk_k (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v15_1).slice (win0_4.rect t)).set ↔ _
  rw [View.set_slice_whole, Rect.mem_set_unit]
  exact Iff.rfl

/-- Every index of the key array is in some point's block: row R is in the block of point R / 512. -/
theorem cover_k (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := by decide
  obtain ⟨t, ht⟩ : ∃ t : Fin cfg0.N, t.val = (i 0).val / 512 := ⟨⟨(i 0).val / 512, by omega⟩, rfl⟩
  refine ⟨t, flush0_4 t, ?_⟩
  rw [mem_blk_k]
  obtain ⟨e00, e01, e10, e11, e20, e21, e30, e31, e40, e41, e50, e51⟩ := idx_facts t
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- The key array after the region: the projection from column 1024 of the region's entry arrays, at every index. -/
theorem k_array (c : Dev nD) :
    (dat0 V c).arrAt 4 cfg0.N = projArr 1024 (by omega) (V c main_v14) (V c main_v8) (V c main_v10) :=
  (dat0 V c).arrAt_eq_of_cover 4 _ (fun t _ => flushed_k_eq V c t) cover_k

/-! ## The value array (window 5) -/

/-- What point t writes back to window 5 is block t of the value projection of the whole entry arrays: the body's
    stored value at a block index is the projection of the point's input blocks, the input rows' block sits at the same
    block row t as the output's, and the weight's and bias's one block is the whole array, read from column 2048. -/
theorem flushed_v_eq (c : Dev nD) (t : Fin cfg0.N) :
    (dat0 V c).flushed 5 t = ((cfg0.win 5).blk t).view.read (Elt Ideal) (projArr 2048 (by omega) (V c main_v14) (V c main_v8) (V c main_v10)) := by
  show (cfg0.win 5).cut (grid0.coords t) ((dat0 V c).after 5 t) = _
  rw [after0_5]
  unfold out0_5
  rw [View.canon_unit_zero hz]
  rw [k0_pay4_eq]
  funext j
  refine (projV_apply' _ _ _ _).trans ?_
  obtain ⟨e00, e01, e10, e11, e20, e21, e30, e31, e40, e41, e50, e51⟩ := idx_facts t
  show _ = projAt 2048 (by omega) (V c main_v14) (V c main_v8) (V c main_v10) ((((cfg0.win 5).blk t).view.emb j) 0) ((((cfg0.win 5).blk t).view.emb j) 1)
  unfold projAt
  have hj0 : (j 0).val < 512 := (j 0).isLt
  have hj1 : (j 1).val < 1024 := (j 1).isLt
  refine congrArg₂ (· + ·) (Finset.sum_congr rfl fun d _ => congrArg₂ (· * ·) ?_ ?_) ?_
  · refine congrArg (V c main_v14) (funext fun a => Fin.ext ?_)
    match a with
    | ⟨0, _⟩ =>
      show win0_0.index t (0 : Fin 2) * 512 + 1 * (0 + 1 * (j 0).val) = win0_5.index t (0 : Fin 2) * 512 + 1 * (j 0).val
      omega
    | ⟨1, _⟩ =>
      show win0_0.index t (1 : Fin 2) * 1024 + 1 * (0 + 1 * d.val) = d.val
      omega
  · refine congrArg (V c main_v8) (funext fun a => Fin.ext ?_)
    match a with
    | ⟨0, _⟩ =>
      show win0_1.index t (0 : Fin 2) * 1024 + 1 * (0 + 1 * d.val) = d.val
      omega
    | ⟨1, _⟩ =>
      show win0_1.index t (1 : Fin 2) * 3072 + 1 * (2048 + 1 * (j 1).val) = 2048 + (win0_5.index t (1 : Fin 2) * 1024 + 1 * (j 1).val)
      omega
  · refine congrArg (V c main_v10) (funext fun a => Fin.ext ?_)
    match a with
    | ⟨0, _⟩ =>
      show win0_2.index t (0 : Fin 2) * 1 + 1 * (0 + 1 * 0) = 0
      omega
    | ⟨1, _⟩ =>
      show win0_2.index t (1 : Fin 2) * 3072 + 1 * (2048 + 1 * (j 1).val) = 2048 + (win0_5.index t (1 : Fin 2) * 1024 + 1 * (j 1).val)
      omega

/-- An index of the value array is in point t's block iff each coordinate is in the block's range on its axis. -/
theorem mem_blk_v (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v15_2).slice (win0_5.rect t)).set ↔ _
  rw [View.set_slice_whole, Rect.mem_set_unit]
  exact Iff.rfl

/-- Every index of the value array is in some point's block: row R is in the block of point R / 512. -/
theorem cover_v (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := by decide
  obtain ⟨t, ht⟩ : ∃ t : Fin cfg0.N, t.val = (i 0).val / 512 := ⟨⟨(i 0).val / 512, by omega⟩, rfl⟩
  refine ⟨t, flush0_5 t, ?_⟩
  rw [mem_blk_v]
  obtain ⟨e00, e01, e10, e11, e20, e21, e30, e31, e40, e41, e50, e51⟩ := idx_facts t
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The value array after the region: the projection from column 2048 of the region's entry arrays, at every index. -/
theorem v_array (c : Dev nD) :
    (dat0 V c).arrAt 5 cfg0.N = projArr 2048 (by omega) (V c main_v14) (V c main_v8) (V c main_v10) :=
  (dat0 V c).arrAt_eq_of_cover 5 _ (fun t _ => flushed_v_eq V c t) cover_v

end Cert.KernelIdeal.AttnValue

end
-- ==== Proof.HostRead.lean ====
/-
  The host operations of the attention layer's program, read one element at a time.

  Before the projection kernel the program scales `Wq` and `bq` by the constant `1/32` (the word `0x3D000000`),
  transposes the three projection matrices and lays them side by side into one `1024 × 3072` matrix, lays the three
  bias vectors end to end into one row of `3072`, transposes `Wo`, turns `bo` into a row, and flattens the
  `4 × 2048 × 1024` input into `8192` rows.  Between the two kernels it folds each of the three `8192 × 1024`
  projections back into `4 × 2048 × 1024`.  Over the extended reals a conversion of float type is the identity.

  Each lemma below says which element of which argument one element of such an array is, over an arbitrary
  valuation `W` of the buffers the stretch starts from:
  row `2048 b + s` of a flattened array is row `s` of batch `b`; column `1024 k + e` of a concatenation of three
  `1024`-wide pieces is column `e` of piece `k`; a transpose swaps the two coordinates.
-/
import proofs.«150292_j15582141350417_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostRead

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-! ### An operation over three literal operands, each operand's contents at its own reference -/

section Nary3
variable {τ' : Topo} {sg : RefSig} {Val : EltTy → Type} {x a b y : Ref sg .tc}

/-- The result of an operation over the literal family `![x, a, b]`: its function applied to the three operands'
    contents, each read at its own reference (rather than at `![x, a, b] k` under a binder). -/
theorem nary3_result
    (f : ((k : Fin 3) → ((![x, a, b] : Fin 3 → Ref sg .tc) k).ty.Contents Val) → y.ty.Contents Val) (hxs hy)
    (F : Valuation τ' sg Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- The contents of one buffer after a literal list of operations, as the operations' functions of the contents
    before: each operation's result at its own buffer is its function's value, at another buffer what was there. -/
macro "host_results" : tactic =>
  `(tactic| (simp only [after_cons, after_nil]
             repeat (first
               | rw [nary3_result]
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ### A flattening of the batch and sequence axes, and its inverse -/

/-- An `[8192, 1024]` array cast to `[4, 2048, 1024]` reads, at `(b, s, e)`, the operand at row `2048 b + s`, column `e`. -/
theorem cast_rows_batch {α : Type} (x : S8192x1024.Idx → α) (h : S8192x1024.ShapeCasts S4x2048x1024)
    (b : Fin 4) (s : Fin 2048) (e : Fin 1024) :
    shapeCast S4x2048x1024 x h (ix3 b s e) = x (ix2 ⟨b.val * 2048 + s.val, by omega⟩ e) :=
  shapeCast_apply (s := S8192x1024) (t := S4x2048x1024) x h _ _ (by
    rw [Shape.rowMajor_val_two, Shape.rowMajor_val_three]
    show (b.val * 2048 + s.val) * 1024 + e.val = (b.val * 2048 + s.val) * 1024 + e.val
    rfl)

/-- A `[4, 2048, 1024]` array cast to `[8192, 1024]` reads, at row `2048 b + s`, column `e`, the operand at `(b, s, e)`. -/
theorem cast_batch_rows {α : Type} (x : S4x2048x1024.Idx → α) (h : S4x2048x1024.ShapeCasts S8192x1024)
    (b : Fin 4) (s : Fin 2048) (e : Fin 1024) :
    shapeCast S8192x1024 x h (ix2 ⟨b.val * 2048 + s.val, by omega⟩ e) = x (ix3 b s e) :=
  shapeCast_apply (s := S4x2048x1024) (t := S8192x1024) x h _ _ (by
    rw [Shape.rowMajor_val_two, Shape.rowMajor_val_three]
    show (b.val * 2048 + s.val) * 1024 + e.val = (b.val * 2048 + s.val) * 1024 + e.val
    rfl)

/-! ### The second stretch (the three projections folded back into batches) and the flattened input -/

theorem q_batch (b : Fin 4) (s : Fin 2048) (e : Fin 1024) :
    (StableHlo.after hostOps1 W (Proc.devRef .tc main_v16) : S4x2048x1024.Idx → EReal) (ix3 b s e)
      = (W (Proc.devRef .tc main_v15_0) : S8192x1024.Idx → EReal) (ix2 ⟨b.val * 2048 + s.val, by omega⟩ e) := by
  have e1 : (StableHlo.after hostOps1 W (Proc.devRef .tc main_v16) : S4x2048x1024.Idx → EReal)
      = shapeCast S4x2048x1024 (W (Proc.devRef .tc main_v15_0) : S8192x1024.Idx → EReal) shapeCasts_S8192x1024_S4x2048x1024 := by
    dsimp only [hostOps1]; after_results; rfl
  rw [e1]
  exact cast_rows_batch _ _ b s e

theorem k_batch (b : Fin 4) (s : Fin 2048) (e : Fin 1024) :
    (StableHlo.after hostOps1 W (Proc.devRef .tc main_v17) : S4x2048x1024.Idx → EReal) (ix3 b s e)
      = (W (Proc.devRef .tc main_v15_1) : S8192x1024.Idx → EReal) (ix2 ⟨b.val * 2048 + s.val, by omega⟩ e) := by
  have e1 : (StableHlo.after hostOps1 W (Proc.devRef .tc main_v17) : S4x2048x1024.Idx → EReal)
      = shapeCast S4x2048x1024 (W (Proc.devRef .tc main_v15_1) : S8192x1024.Idx → EReal) shapeCasts_S8192x1024_S4x2048x1024 := by
    dsimp only [hostOps1]; after_results; rfl
  rw [e1]
  exact cast_rows_batch _ _ b s e

theorem v_batch (b : Fin 4) (s : Fin 2048) (e : Fin 1024) :
    (StableHlo.after hostOps1 W (Proc.devRef .tc main_v18) : S4x2048x1024.Idx → EReal) (ix3 b s e)
      = (W (Proc.devRef .tc main_v15_2) : S8192x1024.Idx → EReal) (ix2 ⟨b.val * 2048 + s.val, by omega⟩ e) := by
  have e1 : (StableHlo.after hostOps1 W (Proc.devRef .tc main_v18) : S4x2048x1024.Idx → EReal)
      = shapeCast S4x2048x1024 (W (Proc.devRef .tc main_v15_2) : S8192x1024.Idx → EReal) shapeCasts_S8192x1024_S4x2048x1024 := by
    dsimp only [hostOps1]; after_results; rfl
  rw [e1]
  exact cast_rows_batch _ _ b s e

theorem x_rows (b : Fin 4) (s : Fin 2048) (d : Fin 1024) :
    (StableHlo.after hostOps0 W (Proc.devRef .tc main_v14) : S8192x1024.Idx → EReal) (ix2 ⟨b.val * 2048 + s.val, by omega⟩ d)
      = (W (Proc.devRef .tc main_arg0) : S4x2048x1024.Idx → EReal) (ix3 b s d) := by
  have e1 : (StableHlo.after hostOps0 W (Proc.devRef .tc main_v14) : S8192x1024.Idx → EReal)
      = shapeCast S8192x1024 (W (Proc.devRef .tc main_arg0) : S4x2048x1024.Idx → EReal) shapeCasts_S4x2048x1024_S8192x1024 := by
    dsimp only [hostOps0]; after_results; rfl
  rw [e1]
  exact cast_batch_rows _ _ b s d

/-! ### Three pieces of extent `1024` laid end to end: position `1024 k + e` is position `e` of piece `k` -/

section Pieces
variable {α : Type}

theorem cat_cols_0 (x0 x1 x2 : S1024x1024.Idx → α)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d ⟨e.val, by omega⟩)
      = x0 (ix2 d e) :=
  concatenate_apply_piece (t := S1024x3072) 1 [⟨S1024x1024, x0⟩, ⟨S1024x1024, x1⟩, ⟨S1024x1024, x2⟩] h _ 0 (by show 0 < 3; omega) S1024x1024 x0 rfl rfl 0 rfl (ix2 d e)
    (fun b hb => match b with | ⟨0, _⟩ => rfl | ⟨1, _⟩ => absurd rfl hb)
    (by show 0 + e.val = e.val; omega)

theorem cat_cols_1 (x0 x1 x2 : S1024x1024.Idx → α)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d ⟨1024 + e.val, by omega⟩)
      = x1 (ix2 d e) :=
  concatenate_apply_piece (t := S1024x3072) 1 [⟨S1024x1024, x0⟩, ⟨S1024x1024, x1⟩, ⟨S1024x1024, x2⟩] h _ 1 (by show 1 < 3; omega) S1024x1024 x1 rfl rfl 1024 rfl (ix2 d e)
    (fun b hb => match b with | ⟨0, _⟩ => rfl | ⟨1, _⟩ => absurd rfl hb)
    (by show 1024 + e.val = 1024 + e.val; rfl)

theorem cat_cols_2 (x0 x1 x2 : S1024x1024.Idx → α)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d ⟨2048 + e.val, by omega⟩)
      = x2 (ix2 d e) :=
  concatenate_apply_piece (t := S1024x3072) 1 [⟨S1024x1024, x0⟩, ⟨S1024x1024, x1⟩, ⟨S1024x1024, x2⟩] h _ 2 (by show 2 < 3; omega) S1024x1024 x2 rfl rfl 2048 rfl (ix2 d e)
    (fun b hb => match b with | ⟨0, _⟩ => rfl | ⟨1, _⟩ => absurd rfl hb)
    (by show 2048 + e.val = 2048 + e.val; rfl)

theorem cat_vec_0 (y0 y1 y2 : S1024.Idx → α)
    (h : Shape.Concatenates [S1024, S1024, S1024] S3072 0) (e : Fin 1024) :
    concatenate S3072 0 [⟨S1024, y0⟩, ⟨S1024, y1⟩, ⟨S1024, y2⟩] h (ix1 ⟨e.val, by omega⟩) = y0 (ix1 e) :=
  concatenate_apply_piece (t := S3072) 0 [⟨S1024, y0⟩, ⟨S1024, y1⟩, ⟨S1024, y2⟩] h _ 0 (by show 0 < 3; omega) S1024 y0 rfl rfl 0 rfl (ix1 e)
    (fun b hb => match b with | ⟨0, _⟩ => absurd rfl hb)
    (by show 0 + e.val = e.val; omega)

theorem cat_vec_1 (y0 y1 y2 : S1024.Idx → α)
    (h : Shape.Concatenates [S1024, S1024, S1024] S3072 0) (e : Fin 1024) :
    concatenate S3072 0 [⟨S1024, y0⟩, ⟨S1024, y1⟩, ⟨S1024, y2⟩] h (ix1 ⟨1024 + e.val, by omega⟩) = y1 (ix1 e) :=
  concatenate_apply_piece (t := S3072) 0 [⟨S1024, y0⟩, ⟨S1024, y1⟩, ⟨S1024, y2⟩] h _ 1 (by show 1 < 3; omega) S1024 y1 rfl rfl 1024 rfl (ix1 e)
    (fun b hb => match b with | ⟨0, _⟩ => absurd rfl hb)
    (by show 1024 + e.val = 1024 + e.val; rfl)

theorem cat_vec_2 (y0 y1 y2 : S1024.Idx → α)
    (h : Shape.Concatenates [S1024, S1024, S1024] S3072 0) (e : Fin 1024) :
    concatenate S3072 0 [⟨S1024, y0⟩, ⟨S1024, y1⟩, ⟨S1024, y2⟩] h (ix1 ⟨2048 + e.val, by omega⟩) = y2 (ix1 e) :=
  concatenate_apply_piece (t := S3072) 0 [⟨S1024, y0⟩, ⟨S1024, y1⟩, ⟨S1024, y2⟩] h _ 2 (by show 2 < 3; omega) S1024 y2 rfl rfl 2048 rfl (ix1 e)
    (fun b hb => match b with | ⟨0, _⟩ => absurd rfl hb)
    (by show 2048 + e.val = 2048 + e.val; rfl)

end Pieces

/-! ### The first stretch: what the projection kernel's operands hold -/

/-- The scalar constant broadcast to any shape reads, everywhere, the constant's word as an extended real. -/
theorem bcast_const_mat (w : BitVec 32) (j : S1024x1024.Idx) :
    broadcastInDim S1024x1024 ![] bcast_S_S1024x1024 (constant (F := Ideal) S_ .f32 w) j = Ideal.ofBits .f32 w :=
  (broadcastInDim_apply _ bcast_S_S1024x1024 (constant (F := Ideal) S_ .f32 w) j ix0 (fun a => a.elim0)).trans
    (constant_apply (s := S_) (φ := .f32) w ix0)

theorem bcast_const_vec (w : BitVec 32) (j : S1024.Idx) :
    broadcastInDim S1024 ![] bcast_S_S1024 (constant (F := Ideal) S_ .f32 w) j = Ideal.ofBits .f32 w :=
  (broadcastInDim_apply _ bcast_S_S1024 (constant (F := Ideal) S_ .f32 w) j ix0 (fun a => a.elim0)).trans
    (constant_apply (s := S_) (φ := .f32) w ix0)

/-- The concatenated projection matrix, as the operations' term of the three weight arguments. -/
theorem after_v8 :
    (StableHlo.after hostOps0 W (Proc.devRef .tc main_v8) : S1024x3072.Idx → EReal)
      = truncf (F := Ideal) .bf16 (concatenate S1024x3072 1
          [⟨S1024x1024, transpose S1024x1024 [1, 0]
              (mulf (F := Ideal) (φ := .f32) (W (Proc.devRef .tc main_arg1))
                (broadcastInDim S1024x1024 ![] bcast_S_S1024x1024 (constant (F := Ideal) S_ .f32 0x3D000000#32)))
              transposes_S1024x1024_S1024x1024_1_0⟩,
           ⟨S1024x1024, transpose S1024x1024 [1, 0] (W (Proc.devRef .tc main_arg3)) transposes_S1024x1024_S1024x1024_1_0⟩,
           ⟨S1024x1024, transpose S1024x1024 [1, 0] (W (Proc.devRef .tc main_arg5)) transposes_S1024x1024_S1024x1024_1_0⟩]
          concatenates_S1024x1024_S1024x1024_S1024x1024_S1024x3072_d1) bitsLt_bf16_f32 := by
  dsimp only [hostOps0]; host_results; rfl

theorem wcat_q (d e : Fin 1024) :
    (StableHlo.after hostOps0 W (Proc.devRef .tc main_v8) : S1024x3072.Idx → EReal) (ix2 d ⟨e.val, by omega⟩)
      = HMul.hMul (α := EReal) (β := EReal) (γ := EReal)
          ((W (Proc.devRef .tc main_arg1) : S1024x1024.Idx → EReal) (ix2 e d)) (Ideal.ofBits .f32 0x3D000000#32) := by
  rw [after_v8]
  refine (truncf_apply (ψ := .bf16) _ bitsLt_bf16_f32 _).trans ?_
  refine (cat_cols_0 _ _ _ _ d e).trans ?_
  refine (transpose_ix2_apply _ _ d e).trans ?_
  refine (mulf_apply _ _ _).trans ?_
  exact congrArg _ (bcast_const_mat _ _)

theorem wcat_k (d e : Fin 1024) :
    (StableHlo.after hostOps0 W (Proc.devRef .tc main_v8) : S1024x3072.Idx → EReal) (ix2 d ⟨1024 + e.val, by omega⟩)
      = (W (Proc.devRef .tc main_arg3) : S1024x1024.Idx → EReal) (ix2 e d) := by
  rw [after_v8]
  refine (truncf_apply (ψ := .bf16) _ bitsLt_bf16_f32 _).trans ?_
  refine (cat_cols_1 _ _ _ _ d e).trans ?_
  exact transpose_ix2_apply _ _ d e

theorem wcat_v (d e : Fin 1024) :
    (StableHlo.after hostOps0 W (Proc.devRef .tc main_v8) : S1024x3072.Idx → EReal) (ix2 d ⟨2048 + e.val, by omega⟩)
      = (W (Proc.devRef .tc main_arg5) : S1024x1024.Idx → EReal) (ix2 e d) := by
  rw [after_v8]
  refine (truncf_apply (ψ := .bf16) _ bitsLt_bf16_f32 _).trans ?_
  refine (cat_cols_2 _ _ _ _ d e).trans ?_
  exact transpose_ix2_apply _ _ d e

/-- The concatenated bias row, as the operations' term of the three bias arguments. -/
theorem after_v10 :
    (StableHlo.after hostOps0 W (Proc.devRef .tc main_v10) : S1x3072.Idx → EReal)
      = shapeCast S1x3072 (concatenate S3072 0
          [⟨S1024, mulf (F := Ideal) (φ := .f32) (W (Proc.devRef .tc main_arg2))
              (broadcastInDim S1024 ![] bcast_S_S1024 (constant (F := Ideal) S_ .f32 0x3D000000#32))⟩,
           ⟨S1024, W (Proc.devRef .tc main_arg4)⟩,
           ⟨S1024, W (Proc.devRef .tc main_arg6)⟩]
          concatenates_S1024_S1024_S1024_S3072_d0) shapeCasts_S3072_S1x3072 := by
  dsimp only [hostOps0]; host_results; rfl

theorem bcat_q (u : Fin 1) (e : Fin 1024) :
    (StableHlo.after hostOps0 W (Proc.devRef .tc main_v10) : S1x3072.Idx → EReal) (ix2 u ⟨e.val, by omega⟩)
      = HMul.hMul (α := EReal) (β := EReal) (γ := EReal)
          ((W (Proc.devRef .tc main_arg2) : S1024.Idx → EReal) (ix1 e)) (Ideal.ofBits .f32 0x3D000000#32) := by
  rw [after_v10]
  refine (shapeCast_a_1a_apply _ _ u _).trans ?_
  refine (cat_vec_0 _ _ _ _ e).trans ?_
  refine (mulf_apply _ _ _).trans ?_
  exact congrArg _ (bcast_const_vec _ _)

theorem bcat_k (u : Fin 1) (e : Fin 1024) :
    (StableHlo.after hostOps0 W (Proc.devRef .tc main_v10) : S1x3072.Idx → EReal) (ix2 u ⟨1024 + e.val, by omega⟩)
      = (W (Proc.devRef .tc main_arg4) : S1024.Idx → EReal) (ix1 e) := by
  rw [after_v10]
  refine (shapeCast_a_1a_apply _ _ u _).trans ?_
  exact cat_vec_1 _ _ _ _ e

theorem bcat_v (u : Fin 1) (e : Fin 1024) :
    (StableHlo.after hostOps0 W (Proc.devRef .tc main_v10) : S1x3072.Idx → EReal) (ix2 u ⟨2048 + e.val, by omega⟩)
      = (W (Proc.devRef .tc main_arg6) : S1024.Idx → EReal) (ix1 e) := by
  rw [after_v10]
  refine (shapeCast_a_1a_apply _ _ u _).trans ?_
  exact cat_vec_2 _ _ _ _ e

/-! ### The first stretch: what the attention kernel's weight operands hold -/

theorem wo_t (d e : Fin 1024) :
    (StableHlo.after hostOps0 W (Proc.devRef .tc main_v12) : S1024x1024.Idx → EReal) (ix2 d e)
      = (W (Proc.devRef .tc main_arg7) : S1024x1024.Idx → EReal) (ix2 e d) := by
  have e1 : (StableHlo.after hostOps0 W (Proc.devRef .tc main_v12) : S1024x1024.Idx → EReal)
      = truncf (F := Ideal) .bf16 (transpose S1024x1024 [1, 0] (W (Proc.devRef .tc main_arg7))
          transposes_S1024x1024_S1024x1024_1_0) bitsLt_bf16_f32 := by
    dsimp only [hostOps0]; host_results
  rw [e1]
  refine (truncf_apply (ψ := .bf16) _ bitsLt_bf16_f32 _).trans ?_
  exact transpose_ix2_apply _ _ d e

theorem bo_row (u : Fin 1) (e : Fin 1024) :
    (StableHlo.after hostOps0 W (Proc.devRef .tc main_v13) : S1x1024.Idx → EReal) (ix2 u e)
      = (W (Proc.devRef .tc main_arg8) : S1024.Idx → EReal) (ix1 e) := by
  have e1 : (StableHlo.after hostOps0 W (Proc.devRef .tc main_v13) : S1x1024.Idx → EReal)
      = shapeCast S1x1024 (W (Proc.devRef .tc main_arg8) : S1024.Idx → EReal) shapeCasts_S1024_S1x1024 := by
    dsimp only [hostOps0]; host_results; rfl
  rw [e1]
  exact shapeCast_a_1a_apply _ _ u e

end Cert.KernelIdeal.HostRead

end
-- ==== Proof.KernelValue.lean ====
/-
  The kernel program's result array, as the layer with 1/32 folded into the query projection.

  After the run the result buffer holds the attention region's output array (the sixteen blocks written back), which is
  the attention of the five arrays that region found at entry. Those are read back to the arguments:
  * the query / key / value arrays are the projection region's three output arrays, folded from 8192 rows back into
    4 batches of 2048 rows; row 2048 b + s of each is the projection of row s of batch b of x by the matching
    1024 columns of the concatenated weight and bias, whose columns 0..1023 are the rows of Wq and the entries of bq
    times the word of 1/32, columns 1024..2047 the rows of Wk and bk, columns 2048..3071 the rows of Wv and bv;
  * the weight the attention region multiplies by is Wo transposed, and its bias row is bo.
  So the result is Cert.Attn.layerFold of the nine arguments; when every entry of x, Wq, bq, Wk, bk is a real number
  that is Cert.Attn.layerQuot of them (AttnSpec: the factor 1/32 moves across the finite sums).
-/
import proofs.«150292_j15582141350417_2_alg».proof.Proof.IdealRun
import proofs.«150292_j15582141350417_2_alg».proof.Proof.AttnArrays
import proofs.«150292_j15582141350417_2_alg».proof.Proof.QkvArrays
import proofs.«150292_j15582141350417_2_alg».proof.Proof.HostRead
import proofs.«150292_j15582141350417_2_alg».proof.Proof.AttnSpec

noncomputable section

namespace Cert.KernelIdeal.AttnValue

open Cert.KernelIdeal Cert.KernelIdeal.Gen Cert.KernelIdeal.Hand Cert.KernelIdeal.HostRead
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-- The nine arguments on core c, as plain arrays. -/
abbrev aX : S4x2048x1024.Idx → EReal := m ((c.tc : Thread nD τ).loc main_arg0)
abbrev aWq : S1024x1024.Idx → EReal := m ((c.tc : Thread nD τ).loc main_arg1)
abbrev aBq : S1024.Idx → EReal := m ((c.tc : Thread nD τ).loc main_arg2)
abbrev aWk : S1024x1024.Idx → EReal := m ((c.tc : Thread nD τ).loc main_arg3)
abbrev aBk : S1024.Idx → EReal := m ((c.tc : Thread nD τ).loc main_arg4)
abbrev aWv : S1024x1024.Idx → EReal := m ((c.tc : Thread nD τ).loc main_arg5)
abbrev aBv : S1024.Idx → EReal := m ((c.tc : Thread nD τ).loc main_arg6)
abbrev aWo : S1024x1024.Idx → EReal := m ((c.tc : Thread nD τ).loc main_arg7)
abbrev aBo : S1024.Idx → EReal := m ((c.tc : Thread nD τ).loc main_arg8)

/-- Row 2048 b + s of the 8192 flattened rows. -/
abbrev flatRow (b : Fin 4) (s : Fin 2048) : Fin 8192 := ⟨b.val * 2048 + s.val, by omega⟩

/-! ## The projection region's three arrays, entry by entry -/

/-- The query array: the projection by Wq and bq, each times the word of 1/32. -/
theorem q_entry (b : Fin 4) (s : Fin 2048) (e : Fin 1024) :
    (V3 m ρ c main_v16 : S4x2048x1024.Idx → EReal) (ix3 b s e)
      = Cert.Attn.lin (aX m c) (fun j => aWq m c j * Cert.Attn.w32nd) (fun j => aBq m c j * Cert.Attn.w32nd) b s e := by
  refine (q_batch (W2 m ρ c) b s e).trans ?_
  have hA : (W2 m ρ c (Proc.devRef .tc main_v15_0) : S8192x1024.Idx → EReal)
      = projArr 0 (by omega) (V1 m ρ c main_v14) (V1 m ρ c main_v8) (V1 m ρ c main_v10) :=
    (W2_arr m ρ c 3).trans (q_array (V1 m ρ) c)
  rw [hA]
  show projAt 0 (by omega) (V1 m ρ c main_v14) (V1 m ρ c main_v8) (V1 m ρ c main_v10) (flatRow b s) e = _
  unfold projAt Cert.Attn.lin
  have hcol : (⟨0 + e.val, by omega⟩ : Fin 3072) = ⟨e.val, by omega⟩ := Fin.ext (Nat.zero_add _)
  rw [hcol]
  refine congrArg₂ (· + ·) (Finset.sum_congr rfl fun d _ => congrArg₂ (· * ·) (x_rows (W0 m ρ c) b s d) (wcat_q (W0 m ρ c) d e)) (bcat_q (W0 m ρ c) 0 e)

/-- The key array: the projection by Wk and bk. -/
theorem k_entry (b : Fin 4) (s : Fin 2048) (e : Fin 1024) :
    (V3 m ρ c main_v17 : S4x2048x1024.Idx → EReal) (ix3 b s e) = Cert.Attn.lin (aX m c) (aWk m c) (aBk m c) b s e := by
  refine (k_batch (W2 m ρ c) b s e).trans ?_
  have hA : (W2 m ρ c (Proc.devRef .tc main_v15_1) : S8192x1024.Idx → EReal)
      = projArr 1024 (by omega) (V1 m ρ c main_v14) (V1 m ρ c main_v8) (V1 m ρ c main_v10) :=
    (W2_arr m ρ c 4).trans (k_array (V1 m ρ) c)
  rw [hA]
  show projAt 1024 (by omega) (V1 m ρ c main_v14) (V1 m ρ c main_v8) (V1 m ρ c main_v10) (flatRow b s) e = _
  unfold projAt Cert.Attn.lin
  refine congrArg₂ (· + ·) (Finset.sum_congr rfl fun d _ => congrArg₂ (· * ·) (x_rows (W0 m ρ c) b s d) (wcat_k (W0 m ρ c) d e)) (bcat_k (W0 m ρ c) 0 e)

/-- The value array: the projection by Wv and bv. -/
theorem v_entry (b : Fin 4) (s : Fin 2048) (e : Fin 1024) :
    (V3 m ρ c main_v18 : S4x2048x1024.Idx → EReal) (ix3 b s e) = Cert.Attn.lin (aX m c) (aWv m c) (aBv m c) b s e := by
  refine (v_batch (W2 m ρ c) b s e).trans ?_
  have hA : (W2 m ρ c (Proc.devRef .tc main_v15_2) : S8192x1024.Idx → EReal)
      = projArr 2048 (by omega) (V1 m ρ c main_v14) (V1 m ρ c main_v8) (V1 m ρ c main_v10) :=
    (W2_arr m ρ c 5).trans (v_array (V1 m ρ) c)
  rw [hA]
  show projAt 2048 (by omega) (V1 m ρ c main_v14) (V1 m ρ c main_v8) (V1 m ρ c main_v10) (flatRow b s) e = _
  unfold projAt Cert.Attn.lin
  refine congrArg₂ (· + ·) (Finset.sum_congr rfl fun d _ => congrArg₂ (· * ·) (x_rows (W0 m ρ c) b s d) (wcat_v (W0 m ρ c) d e)) (bcat_v (W0 m ρ c) 0 e)

/-! ## The output weight and bias the attention region finds -/

/-- Neither the projection region nor the reshapes after it touch the transposed output weight or the bias row. -/
theorem V3_keeps (r : Ref sig .tc) (h1 : r ∉ hostOps1_W) (h0 : ∀ w, Pipeline.arrRef spec0 w ≠ r) :
    V3 m ρ c r = V1 m ρ c r :=
  (StableHlo.after_of_writes_sub hostOps1 _ hostOps1_writes h1).trans (W2_of_ne m ρ c r h0)

theorem wo_entry (d e : Fin 1024) : (V3 m ρ c main_v12 : S1024x1024.Idx → EReal) (ix2 d e) = aWo m c (ix2 e d) := by
  rw [V3_keeps m ρ c main_v12 (by decide) (by decide)]
  exact wo_t (W0 m ρ c) d e

theorem bo_entry (e : Fin 1024) : (V3 m ρ c main_v13 : S1x1024.Idx → EReal) (ix2 (0 : Fin 1) e) = aBo m c (ix1 e) := by
  rw [V3_keeps m ρ c main_v13 (by decide) (by decide)]
  exact bo_row (W0 m ρ c) 0 e

/-! ## The result -/

/-- At one batch, query row and feature: the attention of arrays that are, entry by entry, the three projections, the
    transposed output weight and the bias row is the folded-scale layer's entry. -/
theorem attnOf_eq_attnAt (Q K Vv : S4x2048x1024.Idx → EReal) (Wt : S1024x1024.Idx → EReal) (β : S1x1024.Idx → EReal)
    (x : S4x2048x1024.Idx → EReal) (Wq : S1024x1024.Idx → EReal) (bq : S1024.Idx → EReal) (Wk : S1024x1024.Idx → EReal) (bk : S1024.Idx → EReal)
    (Wv : S1024x1024.Idx → EReal) (bv : S1024.Idx → EReal) (Wo : S1024x1024.Idx → EReal) (bo : S1024.Idx → EReal)
    (hQ : ∀ b s e, Q (ix3 b s e) = Cert.Attn.lin x (fun j => Wq j * Cert.Attn.w32nd) (fun j => bq j * Cert.Attn.w32nd) b s e)
    (hK : ∀ b s e, K (ix3 b s e) = Cert.Attn.lin x Wk bk b s e)
    (hV : ∀ b s e, Vv (ix3 b s e) = Cert.Attn.lin x Wv bv b s e)
    (hW : ∀ d e, Wt (ix2 d e) = Wo (ix2 e d)) (hβ : ∀ e, β (ix2 (0 : Fin 1) e) = bo (ix1 e))
    (b : Fin 4) (q : Fin 2048) (e : Fin 1024) :
    attnOf Q K Vv Wt β b q e = Cert.Attn.attnAt (Cert.Attn.scoreFold x Wq bq Wk bk) (Cert.Attn.lin x Wv bv) Wo bo b q e := by
  unfold attnOf Cert.Attn.attnAt
  have hs : (fun j' : Fin 2048 => ∑ d' : Fin 1024, Q (ix3 b q d') * K (ix3 b j' d')) = Cert.Attn.scoreFold x Wq bq Wk bk b q :=
    funext fun j' => by
      unfold Cert.Attn.scoreFold
      exact Finset.sum_congr rfl fun d' _ => by rw [hQ b q d', hK b j' d']
  rw [hs, hβ e]
  refine congrArg (· + bo (ix1 e)) (Finset.sum_congr rfl fun d _ => ?_)
  rw [hW d e]
  refine congrArg (· * Wo (ix2 e d)) (Finset.sum_congr rfl fun j _ => ?_)
  rw [hV b j d]

/-- Hence the whole arrays agree. -/
theorem attnArr_eq_layerFold (Q K Vv : S4x2048x1024.Idx → EReal) (Wt : S1024x1024.Idx → EReal) (β : S1x1024.Idx → EReal)
    (x : S4x2048x1024.Idx → EReal) (Wq : S1024x1024.Idx → EReal) (bq : S1024.Idx → EReal) (Wk : S1024x1024.Idx → EReal) (bk : S1024.Idx → EReal)
    (Wv : S1024x1024.Idx → EReal) (bv : S1024.Idx → EReal) (Wo : S1024x1024.Idx → EReal) (bo : S1024.Idx → EReal)
    (hQ : ∀ b s e, Q (ix3 b s e) = Cert.Attn.lin x (fun j => Wq j * Cert.Attn.w32nd) (fun j => bq j * Cert.Attn.w32nd) b s e)
    (hK : ∀ b s e, K (ix3 b s e) = Cert.Attn.lin x Wk bk b s e)
    (hV : ∀ b s e, Vv (ix3 b s e) = Cert.Attn.lin x Wv bv b s e)
    (hW : ∀ d e, Wt (ix2 d e) = Wo (ix2 e d)) (hβ : ∀ e, β (ix2 (0 : Fin 1) e) = bo (ix1 e)) :
    attnArr Q K Vv Wt β = Cert.Attn.layerFold x Wq bq Wk bk Wv bv Wo bo :=
  funext fun i => attnOf_eq_attnAt Q K Vv Wt β x Wq bq Wk bk Wv bv Wo bo hQ hK hV hW hβ (i 0) (i 1) (i 2)

/-- After the run the result buffer holds the folded-scale layer of the arguments. -/
theorem result_fold :
    (W4 m ρ c (Proc.devRef .tc main_v19) : S4x2048x1024.Idx → EReal)
      = Cert.Attn.layerFold (aX m c) (aWq m c) (aBq m c) (aWk m c) (aBk m c) (aWv m c) (aBv m c) (aWo m c) (aBo m c) :=
  ((W4_arr m ρ c 5).trans (out_array (V3 m ρ) c)).trans
    (attnArr_eq_layerFold _ _ _ _ _ _ _ _ _ _ _ _ _ _ (q_entry m ρ c) (k_entry m ρ c) (v_entry m ρ c) (wo_entry m ρ c) (bo_entry m ρ c))

end Cert.KernelIdeal.AttnValue

end
-- ==== Proof.RefStages.lean ====
/-
  The reference program read stage by stage at explicit coordinates, on the extended reals.

  Each intermediate array of the reference is identified, at a coordinate triple or pair, with the matching piece of
  the specification: the three projections with lin, the scaled products of queries and keys with scoreQuot, the
  row maximum with rowMax, the shifted exponentials with rowExp, their row sum, the softmax weights with rowSoft, the
  weighted sum of values, and the output projection with attnAt. Two facts beyond re-indexing are used: the row
  maximum is a fold of max from minus infinity, so taking max with minus infinity again changes nothing; and the row
  sum starts from the zero word, which is the real number 0.
-/
import proofs.«150292_j15582141350417_2_alg».proof.Proof.Gen.ReferenceIdeal.Read
import proofs.«150292_j15582141350417_2_alg».proof.Proof.AttnSpec

noncomputable section

namespace Cert.ReferenceIdeal.RefValue

open Cert.ReferenceIdeal Cert.ReferenceIdeal.Read Idealize.ShloMosaic Idealize.ShloMosaic.ValueIdx Cert.Attn

/-- The three kinds of argument array: activations, a projection's weights, a projection's bias. -/
abbrev ActV : Type := (⟨S4x2048x1024, .f32⟩ : BufTy).Contents (Elt Ideal)
abbrev MatV : Type := (⟨S1024x1024, .f32⟩ : BufTy).Contents (Elt Ideal)
abbrev BiasV : Type := (⟨S1024, .f32⟩ : BufTy).Contents (Elt Ideal)

/-- A projection stage — the product with the weights over the input feature, then the bias spread over batch and
    position — at (b, s, e) is the sum over d of x[b,s,d] W[e,d], plus β[e]. -/
theorem proj_apply (x : ActV) (W : MatV) (β : BiasV) (b : Fin 4) (s : Fin 2048) (e : Fin 1024) :
    val_main_v3 (F := Ideal) x W β (ix3 b s e) = lin x W β b s e := by
  rw [val_main_v3_apply, val_main_v0_apply, val_main_v2_apply, val_main_v1_apply, Ideal.addf_def]
  unfold lin
  have hl : ∀ d : Fin 1024, lidx_main_v0 (ix3 b s e) d = ix3 b s d := fun d =>
    funext fun a => Fin.ext (by match a with | ⟨0, _⟩ => rfl | ⟨1, _⟩ => rfl | ⟨2, _⟩ => rfl)
  have hr : ∀ d : Fin 1024, ridx_main_v0 (ix3 b s e) d = ix2 e d := fun d =>
    funext fun a => Fin.ext (by match a with | ⟨0, _⟩ => rfl | ⟨1, _⟩ => rfl)
  have hb : idx_main_v1 (idx_main_v2 (ix3 b s e)) = ix1 e :=
    funext fun a => Fin.ext (by match a with | ⟨0, _⟩ => rfl)
  simp only [hl, hr, hb]

/-- The key and value projections are the same stage as the query projection, over their own weights and bias. -/
theorem v7_eq (x : ActV) (W : MatV) (β : BiasV) : val_main_v7 (F := Ideal) x W β = val_main_v3 (F := Ideal) x W β := rfl
theorem v11_eq (x : ActV) (W : MatV) (β : BiasV) : val_main_v11 (F := Ideal) x W β = val_main_v3 (F := Ideal) x W β := rfl

/-- The scores at (b, q, k): the sum over d of Q[b,q,d] K[b,k,d], divided by the square root of 1024. -/
theorem score_apply (x0 : ActV) (x1 : MatV) (x2 : BiasV) (x3 : MatV) (x4 : BiasV) (b : Fin 4) (q k : Fin 2048) :
    val_main_v15 (F := Ideal) x0 x1 x2 x3 x4 (ix3 b q k) = scoreQuot x0 x1 x2 x3 x4 b q k := by
  rw [val_main_v15_apply, val_main_v12_apply, val_main_v14_apply, val_main_v13_apply, val_main_cst_apply,
    Ideal.hostDivf_def, Ideal.hostUnary_sqrt_def, Ideal.ofBits_def]
  unfold scoreQuot
  have hl : ∀ d : Fin 1024, lidx_main_v12 (ix3 b q k) d = ix3 b q d := fun d =>
    funext fun a => Fin.ext (by match a with | ⟨0, _⟩ => rfl | ⟨1, _⟩ => rfl | ⟨2, _⟩ => rfl)
  have hr : ∀ d : Fin 1024, ridx_main_v12 (ix3 b q k) d = ix3 b k d := fun d =>
    funext fun a => Fin.ext (by match a with | ⟨0, _⟩ => rfl | ⟨1, _⟩ => rfl | ⟨2, _⟩ => rfl)
  simp only [hl, hr, v7_eq, proj_apply]

/-- The reduced index (b, q) with the key k put back on the last axis is (b, q, k). -/
theorem lift_ix3 (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  fin_cases c <;> rfl

/-- A maximum taken from c is not raised by taking it with c once more. -/
theorem max_fold_self {ι : Type} (s : Finset ι) (c : EReal) (f : ι → EReal) : max c (s.fold max c f) = s.fold max c f :=
  max_eq_right ((Finset.le_fold_max c).2 (Or.inl le_rfl))

/-- The row maximum at (b, q): the maximum over the keys of the scores, from minus infinity. -/
theorem rowMax_apply (x0 : ActV) (x1 : MatV) (x2 : BiasV) (x3 : MatV) (x4 : BiasV) (b : Fin 4) (q : Fin 2048) :
    val_main_v18 (F := Ideal) x0 x1 x2 x3 x4 (ix2 b q) = rowMax (scoreQuot x0 x1 x2 x3 x4 b q) := by
  have h : S4x2048x2048.Reduces [2] S4x2048 := by decide
  rw [val_main_v18_apply, val_main_v17_apply, val_main_cst_1_apply, Ideal.maximumf_def, Ideal.ofBits_def]
  unfold val_main_v16
  rw [Host.reduce_eq_fold_single (FloatOps.maximumf (F := Ideal) (φ := .f32)) _ _ _ h]
  have hf : (val_main_v15 (F := Ideal) x0 x1 x2 x3 x4 ∘ h.lift (ix2 b q)) = fun k : Fin 2048 => scoreQuot x0 x1 x2 x3 x4 b q k :=
    funext fun k => (congrArg _ (lift_ix3 h b q k)).trans (score_apply x0 x1 x2 x3 x4 b q _)
  show max wNegInf (Finset.fold max wNegInf (val_main_v15 (F := Ideal) x0 x1 x2 x3 x4 ∘ h.lift (ix2 b q)) (Finset.univ : Finset (Fin 2048))) = _
  rw [hf]
  exact max_fold_self _ _ _

/-- The shifted exponential at (b, q, k). -/
theorem exp_apply (x0 : ActV) (x1 : MatV) (x2 : BiasV) (x3 : MatV) (x4 : BiasV) (b : Fin 4) (q k : Fin 2048) :
    val_main_v22 (F := Ideal) x0 x1 x2 x3 x4 (ix3 b q k) = rowExp (scoreQuot x0 x1 x2 x3 x4 b q) k := by
  rw [val_main_v22_apply, val_main_v21_apply, val_main_v20_apply, val_main_v19_apply, Ideal.hostUnary_exp_def, Ideal.subf_def]
  have hi : idx_main_v19 (idx_main_v20 (ix3 b q k)) = ix2 b q :=
    funext fun a => Fin.ext (by match a with | ⟨0, _⟩ => rfl | ⟨1, _⟩ => rfl)
  rw [hi, score_apply, rowMax_apply]
  rfl

/-- The row's sum of exponentials at (b, q): the reduce starts from the zero word, which adds nothing. -/
theorem expSum_apply (x0 : ActV) (x1 : MatV) (x2 : BiasV) (x3 : MatV) (x4 : BiasV) (b : Fin 4) (q : Fin 2048) :
    val_main_v23 (F := Ideal) x0 x1 x2 x3 x4 (ix2 b q) = ∑ k : Fin 2048, rowExp (scoreQuot x0 x1 x2 x3 x4 b q) k := by
  rw [val_main_v23_apply, val_main_cst_2_apply, Ideal.ofBits_def, Ideal.ofBits_zero_f32, zero_add]
  refine Finset.sum_congr rfl fun k _ => ?_
  have hi : idx_main_v23 (ix2 b q) k = ix3 b q k :=
    funext fun a => Fin.ext (by match a with | ⟨0, _⟩ => rfl | ⟨1, _⟩ => rfl | ⟨2, _⟩ => rfl)
  rw [hi, exp_apply]

/-- The softmax weight at (b, q, k). -/
theorem soft_apply (x0 : ActV) (x1 : MatV) (x2 : BiasV) (x3 : MatV) (x4 : BiasV) (b : Fin 4) (q k : Fin 2048) :
    val_main_v26 (F := Ideal) x0 x1 x2 x3 x4 (ix3 b q k) = rowSoft (scoreQuot x0 x1 x2 x3 x4 b q) k := by
  rw [val_main_v26_apply, val_main_v25_apply, val_main_v24_apply, Ideal.hostDivf_def]
  have hi : idx_main_v24 (idx_main_v25 (ix3 b q k)) = ix2 b q :=
    funext fun a => Fin.ext (by match a with | ⟨0, _⟩ => rfl | ⟨1, _⟩ => rfl)
  rw [hi, exp_apply, expSum_apply]
  rfl

/-- The weighted sum of values at (b, q, d): the sum over the keys of the softmax weight times V[b,k,d]. -/
theorem ctx_apply (x0 : ActV) (x1 : MatV) (x2 : BiasV) (x3 : MatV) (x4 : BiasV) (x5 : MatV) (x6 : BiasV) (b : Fin 4) (q : Fin 2048) (d : Fin 1024) :
    val_main_v27 (F := Ideal) x0 x1 x2 x3 x4 x5 x6 (ix3 b q d)
      = ∑ k : Fin 2048, rowSoft (scoreQuot x0 x1 x2 x3 x4 b q) k * lin x0 x5 x6 b k d := by
  rw [val_main_v27_apply]
  refine Finset.sum_congr rfl fun k _ => ?_
  have hl : lidx_main_v27 (ix3 b q d) k = ix3 b q k :=
    funext fun a => Fin.ext (by match a with | ⟨0, _⟩ => rfl | ⟨1, _⟩ => rfl | ⟨2, _⟩ => rfl)
  have hr : ridx_main_v27 (ix3 b q d) k = ix3 b k d :=
    funext fun a => Fin.ext (by match a with | ⟨0, _⟩ => rfl | ⟨1, _⟩ => rfl | ⟨2, _⟩ => rfl)
  rw [hl, hr, soft_apply, v11_eq, proj_apply]

/-- The output projection is the projection stage once more, over the weighted sums of values. -/
theorem v31_eq (x0 : ActV) (x1 : MatV) (x2 : BiasV) (x3 : MatV) (x4 : BiasV) (x5 : MatV) (x6 : BiasV) (x7 : MatV) (x8 : BiasV) :
    val_main_v31 (F := Ideal) x0 x1 x2 x3 x4 x5 x6 x7 x8 = val_main_v3 (F := Ideal) (val_main_v27 (F := Ideal) x0 x1 x2 x3 x4 x5 x6) x7 x8 := rfl

/-- The layer's result at (b, q, e). -/
theorem out_apply (x0 : ActV) (x1 : MatV) (x2 : BiasV) (x3 : MatV) (x4 : BiasV) (x5 : MatV) (x6 : BiasV) (x7 : MatV) (x8 : BiasV) (b : Fin 4) (q : Fin 2048) (e : Fin 1024) :
    val_main_v31 (F := Ideal) x0 x1 x2 x3 x4 x5 x6 x7 x8 (ix3 b q e)
      = attnAt (scoreQuot x0 x1 x2 x3 x4) (lin x0 x5 x6) x7 x8 b q e := by
  rw [v31_eq, proj_apply]
  show (∑ d : Fin 1024, val_main_v27 (F := Ideal) x0 x1 x2 x3 x4 x5 x6 (ix3 b q d) * x7 (ix2 e d)) + x8 (ix1 e) = _
  simp only [ctx_apply]
  rfl

end Cert.ReferenceIdeal.RefValue

end
-- ==== Proof.RefValue.lean ====
/-
  The reference program computes the specification: its result array is layerQuot of the nine argument arrays, and
  every weakly fair execution of it ends with the result buffer holding that function of the arguments' contents at
  launch, the arguments unchanged.
-/
import proofs.«150292_j15582141350417_2_alg».proof.Proof.RefStages

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Attn

/-- The reference's result is the specification, index by index: an index is its three coordinates, and at
    coordinates the last stage is the specification's value. -/
theorem result_eq (x0 : ActV) (x1 : MatV) (x2 : BiasV) (x3 : MatV) (x4 : BiasV) (x5 : MatV) (x6 : BiasV) (x7 : MatV) (x8 : BiasV) :
    val_main_v31 (F := Ideal) x0 x1 x2 x3 x4 x5 x6 x7 x8 = layerQuot x0 x1 x2 x3 x4 x5 x6 x7 x8 := by
  funext i
  obtain ⟨b, q, e, rfl⟩ : ∃ (b : Fin 4) (q : Fin 2048) (e : Fin 1024), i = ix3 b q e := ⟨i 0, i 1, i 2, eq_ix3 i⟩
  exact out_apply x0 x1 x2 x3 x4 x5 x6 x7 x8 b q e

/-- On every device, from any memory with zero counters: every weakly fair execution of the reference terminates
    with its result the specification of the arguments' contents at launch, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = layerQuot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨((h c).1.trans (val_main_v31_eq m c)).trans (result_eq _ _ _ _ _ _ _ _ _), (h c).2⟩)
    (Cert.ReferenceIdeal.Value.run m ρ)

end Cert.ReferenceIdeal.RefValue

end
-- ==== Proof.FiniteArgs.lean ====
import proofs.«150292_j15582141350417_2_alg».proof.Defs
import proofs.«150292_j15582141350417_2_alg».proof.Proof.Gen.Pre_finite_inputs
import Idealize.ShloMosaic.Lib.ReduceAll
import Idealize.ShloMosaic.Lib.ValueIdx

/-!
# The argument arrays hold real numbers

The precondition says, of each of the nine argument arrays `x`, that `|x| < +∞` holds at every
entry: the comparison is taken entrywise, folded by `and` over all axes from the constant 1, the nine
folds are joined by `and`, and the result is 1. At the ideal instance a float is an extended real,
`|x|` is `max x (-x)` and the constant is `⊤`; an extended real with `max x (-x) < ⊤` is neither
`⊤` nor `⊥`, so it is a real number. This file reads that chain backwards, once for a general shape,
and then for the nine arrays.
-/

noncomputable section

namespace Cert.Proof.FiniteArgs

open Idealize.ShloMosaic Idealize.SL.Sem
open Cert.Pre_finite_inputs

/-- The rank-0 shape has one index. -/
instance : Subsingleton S_.Idx := ⟨fun a b => funext fun d => d.elim0⟩

/-- The f32 pattern `0x7F800000` is `+∞`. -/
theorem inf_eq_top : Ideal.ofBits .f32 0x7F800000#32 = (⊤ : EReal) := by
  simp [Ideal.ofBits, Ideal.ieee]

/-- One entry: if `|x| < +∞` answers 1 then `x` is a real number. The three cases of an extended
    real: at `⊥` and at `⊤` the maximum `max x (-x)` is `⊤`, which is not below `⊤`. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_eq_top] at h'
  unfold Ideal.cmp at h'
  induction x using EReal.rec with
  | bot => simp at h'
  | coe r => exact ⟨r, rfl⟩
  | top => simp at h'

/-- A whole array of any shape: if the fold by `and` of `|x| < +∞` over all axes is 1, every entry
    of `x` is a real number. -/
theorem all_real {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant S_ .f32 0x7F800000#32)))
          (constantI S_ 1 1#1) hr hu j = 1#1) (i : s.Idx) :
    ∃ r : ℝ, x i = (r : EReal) :=
  real_of_abs_lt_inf (x i) (Host.reduce_andi_all _ _ hr hu j e i)

/-- The three shapes of the argument arrays. -/
theorem all_real_S4x2048x1024 (x : FVec Ideal S4x2048x1024 .f32)
    (hb : S_.BroadcastsInDim S4x2048x1024 (![] : Fin 0 → Fin S4x2048x1024.rank))
    (hr : S4x2048x1024.ReducesTo [0, 1, 2] S_) (hu : 0 < S_.numel) (j : S_.Idx)
    (e : Host.reduce IntOp.andi
          (cmpf .olt (Host.absf x) (broadcastInDim S4x2048x1024 ![] hb (constant S_ .f32 0x7F800000#32)))
          (constantI S_ 1 1#1) hr hu j = 1#1) (i : S4x2048x1024.Idx) :
    ∃ r : ℝ, x i = (r : EReal) := all_real x hb hr hu j e i

theorem all_real_S1024x1024 (x : FVec Ideal S1024x1024 .f32)
    (hb : S_.BroadcastsInDim S1024x1024 (![] : Fin 0 → Fin S1024x1024.rank))
    (hr : S1024x1024.ReducesTo [0, 1] S_) (hu : 0 < S_.numel) (j : S_.Idx)
    (e : Host.reduce IntOp.andi
          (cmpf .olt (Host.absf x) (broadcastInDim S1024x1024 ![] hb (constant S_ .f32 0x7F800000#32)))
          (constantI S_ 1 1#1) hr hu j = 1#1) (i : S1024x1024.Idx) :
    ∃ r : ℝ, x i = (r : EReal) := all_real x hb hr hu j e i

theorem all_real_S1024 (x : FVec Ideal S1024 .f32)
    (hb : S_.BroadcastsInDim S1024 (![] : Fin 0 → Fin S1024.rank))
    (hr : S1024.ReducesTo [0] S_) (hu : 0 < S_.numel) (j : S_.Idx)
    (e : Host.reduce IntOp.andi
          (cmpf .olt (Host.absf x) (broadcastInDim S1024 ![] hb (constant S_ .f32 0x7F800000#32)))
          (constantI S_ 1 1#1) hr hu j = 1#1) (i : S1024.Idx) :
    ∃ r : ℝ, x i = (r : EReal) := all_real x hb hr hu j e i

/-- An `and` of two rank-0 bits that is 1 had both bits 1. -/
theorem andi_split {a b : IVec S_ 1} {j : S_.Idx} (h : andi a b j = 1#1) : a j = 1#1 ∧ b j = 1#1 :=
  IntOp.andi_eq_one.1 h

/-- Under the precondition every entry of every argument array is a real number. The printed
    predicate is the left-nested conjunction `((((((((p0 ∧ p1) ∧ p2) ∧ p3) ∧ p4) ∧ p5) ∧ p6) ∧ p7) ∧ p8)`
    of the nine folds, so the last fold splits off first. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) := by
  have h0 := congrFun (h c) ValueIdx.ix0
  dsimp only [Cert.Pre_finite_inputs.fn, Cert.Pre_finite_inputs.fn_part1, Cert.Pre_finite_inputs.fn_part2] at h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  exact ⟨all_real_S4x2048x1024 _ _ _ _ _ e0,
    all_real_S1024x1024 _ _ _ _ _ e1,
    all_real_S1024 _ _ _ _ _ e2,
    all_real_S1024x1024 _ _ _ _ _ e3,
    all_real_S1024 _ _ _ _ _ e4,
    all_real_S1024x1024 _ _ _ _ _ e5,
    all_real_S1024 _ _ _ _ _ e6,
    all_real_S1024x1024 _ _ _ _ _ e7,
    all_real_S1024 _ _ _ _ _ e8⟩

/-- Argument 0, its index taken in the shape `S4x2048x1024`. -/
theorem arg0_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S4x2048x1024.Idx) :
    ∃ r : ℝ, (m ((c.tc : Thread Cert.KernelIdeal.nD Cert.KernelIdeal.τ).loc Cert.KernelIdeal.main_arg0) : FVec Ideal S4x2048x1024 .f32) i = (r : EReal) :=
  (args_real m h c).1 i

/-- Argument 1, its index taken in the shape `S1024x1024`. -/
theorem arg1_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024x1024.Idx) :
    ∃ r : ℝ, (m ((c.tc : Thread Cert.KernelIdeal.nD Cert.KernelIdeal.τ).loc Cert.KernelIdeal.main_arg1) : FVec Ideal S1024x1024 .f32) i = (r : EReal) :=
  (args_real m h c).2.1 i

/-- Argument 2, its index taken in the shape `S1024`. -/
theorem arg2_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024.Idx) :
    ∃ r : ℝ, (m ((c.tc : Thread Cert.KernelIdeal.nD Cert.KernelIdeal.τ).loc Cert.KernelIdeal.main_arg2) : FVec Ideal S1024 .f32) i = (r : EReal) :=
  (args_real m h c).2.2.1 i

/-- Argument 3, its index taken in the shape `S1024x1024`. -/
theorem arg3_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024x1024.Idx) :
    ∃ r : ℝ, (m ((c.tc : Thread Cert.KernelIdeal.nD Cert.KernelIdeal.τ).loc Cert.KernelIdeal.main_arg3) : FVec Ideal S1024x1024 .f32) i = (r : EReal) :=
  (args_real m h c).2.2.2.1 i

/-- Argument 4, its index taken in the shape `S1024`. -/
theorem arg4_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024.Idx) :
    ∃ r : ℝ, (m ((c.tc : Thread Cert.KernelIdeal.nD Cert.KernelIdeal.τ).loc Cert.KernelIdeal.main_arg4) : FVec Ideal S1024 .f32) i = (r : EReal) :=
  (args_real m h c).2.2.2.2.1 i

/-- Argument 5, its index taken in the shape `S1024x1024`. -/
theorem arg5_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024x1024.Idx) :
    ∃ r : ℝ, (m ((c.tc : Thread Cert.KernelIdeal.nD Cert.KernelIdeal.τ).loc Cert.KernelIdeal.main_arg5) : FVec Ideal S1024x1024 .f32) i = (r : EReal) :=
  (args_real m h c).2.2.2.2.2.1 i

/-- Argument 6, its index taken in the shape `S1024`. -/
theorem arg6_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024.Idx) :
    ∃ r : ℝ, (m ((c.tc : Thread Cert.KernelIdeal.nD Cert.KernelIdeal.τ).loc Cert.KernelIdeal.main_arg6) : FVec Ideal S1024 .f32) i = (r : EReal) :=
  (args_real m h c).2.2.2.2.2.2.1 i

/-- Argument 7, its index taken in the shape `S1024x1024`. -/
theorem arg7_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024x1024.Idx) :
    ∃ r : ℝ, (m ((c.tc : Thread Cert.KernelIdeal.nD Cert.KernelIdeal.τ).loc Cert.KernelIdeal.main_arg7) : FVec Ideal S1024x1024 .f32) i = (r : EReal) :=
  (args_real m h c).2.2.2.2.2.2.2.1 i

/-- Argument 8, its index taken in the shape `S1024`. -/
theorem arg8_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : S1024.Idx) :
    ∃ r : ℝ, (m ((c.tc : Thread Cert.KernelIdeal.nD Cert.KernelIdeal.τ).loc Cert.KernelIdeal.main_arg8) : FVec Ideal S1024 .f32) i = (r : EReal) :=
  (args_real m h c).2.2.2.2.2.2.2.2 i

end Cert.Proof.FiniteArgs
-- ==== Proof.lean ====
/-
  A single-head attention layer over f32[4, 2048, 1024] activations: the kernel program against its reference,
  as functions on the extended reals.

  The reference computes Q = x Wq^T + bq, K, V likewise, the scores (Q K^T) / sqrt 1024, their softmax over the keys,
  the weighted sum of V and the output projection by Wo and bo. The kernel program multiplies Wq and bq by the word of
  0.03125 = 1/32 on the host, lays the three transposed projection weights side by side and the three biases end to
  end, and runs two grid regions: one projects 512 rows at a time onto queries, keys and values; the other, per batch
  and per block of 512 query rows, takes the scores against the whole batch's keys, the softmax (row maximum from
  minus infinity, exponentials, row sum, exact quotient), the weighted sum of the batch's values, and the output
  projection. Changes of float format are the identity on the extended reals.

  * Each program runs to the end without a fault and leaves its nine arguments unchanged: for the two kernel programs
    this is read off the run through both regions (no host operation and no region writes an argument); for the
    reference it is its run with the result dropped.
  * The idealized kernel is the kernel's own text read on the extended reals: no operation was rewritten.
  * The two results are equal: the kernel's result array is the layer with 1/32 folded into the query projection, the
    reference's is the layer with the scores divided by sqrt 1024 = 32, and on inputs whose entries are all real
    numbers — which the precondition states — a real factor moves across the two finite sums, so the scores, and
    everything computed from them, agree.
-/
import proofs.«150292_j15582141350417_2_alg».proof.Defs
import proofs.«150292_j15582141350417_2_alg».proof.Proof.Gen.Kernel
import proofs.«150292_j15582141350417_2_alg».proof.Proof.Gen.KernelIdeal
import proofs.«150292_j15582141350417_2_alg».proof.Proof.Gen.ReferenceIdeal
import proofs.«150292_j15582141350417_2_alg».proof.Proof.Gen.Pre_finite_inputs
import proofs.«150292_j15582141350417_2_alg».proof.Proof.BitsRun
import proofs.«150292_j15582141350417_2_alg».proof.Proof.IdealRun
import proofs.«150292_j15582141350417_2_alg».proof.Proof.KernelValue
import proofs.«150292_j15582141350417_2_alg».proof.Proof.RefValue
import proofs.«150292_j15582141350417_2_alg».proof.Proof.FiniteArgs
import proofs.«150292_j15582141350417_2_alg».proof.Proof.AttnSpec

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Hand.frame m ρ

/-- So does the kernel program on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs the kernel program and the reference end with the same result array: the layer with the scores
    divided by sqrt 1024. The kernel's is the folded-scale layer, equal to it because every argument entry is real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.layerQuot
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel program: every unscoped buffer is read off the last boundary's contents
    refine (θ_run Cert.KernelIdeal.defs _ _).mono (fun r h c => ?_) (Cert.KernelIdeal.Hand.run_all (F := Ideal) m ρ)
    obtain ⟨r0, r1, r2, r3, r4, -, -, -, -⟩ := Cert.Proof.FiniteArgs.args_real m hpre c
    exact ⟨(h c _ (Cert.KernelIdeal.Hand.mem_uc Cert.KernelIdeal.main_v19 (by decide))).trans
        ((Cert.KernelIdeal.AttnValue.result_fold m ρ c).trans
          (Cert.Attn.layerFold_eq_layerQuot _ _ _ _ _ _ _ _ _ r0 r1 r2 r3 r4)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c)⟩
  · -- the reference: its result is the same layer of its own arguments, which agree with the kernel's
    refine (θ_run Cert.ReferenceIdeal.defs _ _).mono (fun r h c => ⟨?_, (h c).2⟩) (Cert.ReferenceIdeal.RefValue.run m' ρ')
    obtain ⟨e0, e1, e2, e3, e4, e5, e6, e7, e8⟩ := hagree c
    rw [(h c).1, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
